-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S64 : Shape := ⟨1, ![64]⟩
abbrev S2x3200000 : Shape := ⟨2, ![2, 3200000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : FVec F S256x64 .f32) (main_arg2 : FVec F S64 .f32) (main_arg3 : IVec S2x3200000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S256x64 : Shape := ⟨2, ![256, 64]⟩
abbrev S64 : Shape := ⟨1, ![64]⟩
abbrev S2x3200000 : Shape := ⟨2, ![2, 3200000]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S_ : Shape := ⟨0, ![]⟩
abbrev S3300000x1 : Shape := ⟨2, ![3300000, 1]⟩
abbrev S1x64 : Shape := ⟨2, ![1, 64]⟩
abbrev S100000x1 : Shape := ⟨2, ![100000, 1]⟩
abbrev S100000x64 : Shape := ⟨2, ![100000, 64]⟩
abbrev S5000x256 : Shape := ⟨2, ![5000, 256]⟩
abbrev S5000x1 : Shape := ⟨2, ![5000, 1]⟩
abbrev S5000x64 : Shape := ⟨2, ![5000, 64]⟩
abbrev S3300000x64 : Shape := ⟨2, ![3300000, 64]⟩

abbrev nBuf : Space → Nat
  | .hbm => 63
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S2x3200000, .i32⟩
  | .hbm, ⟨4, _⟩ => ⟨S100000, .i32⟩
  | .hbm, ⟨5, _⟩ => ⟨S1x100000, .i32⟩
  | .hbm, ⟨6, _⟩ => ⟨S1x100000, .i32⟩
  | .hbm, ⟨7, _⟩ => ⟨S2x100000, .i32⟩
  | .hbm, ⟨8, _⟩ => ⟨S2x3300000, .i32⟩
  | .hbm, ⟨9, _⟩ => ⟨S1x3300000, .i32⟩
  | .hbm, ⟨10, _⟩ => ⟨S3300000, .i32⟩
  | .hbm, ⟨11, _⟩ => ⟨S1x3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S1x64, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000x64, .f32⟩
  | .hbm, ⟨40, _⟩ => ⟨S_, .f32⟩
  | .hbm, ⟨41, _⟩ => ⟨S100000x64, .f32⟩
  | .hbm, ⟨42, _⟩ => ⟨S3300000x1, .i32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S_, .f32⟩
  | .hbm, ⟨57, _⟩ => ⟨S100000x64, .f32⟩
  | .hbm, ⟨58, _⟩ => ⟨S3300000x1, .i32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S64_S1x64 : S64.ShapeCasts S1x64
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S3300000x1_S3300000_n_0_0_1_wf : ScatterDims.WF S100000 S3300000x1 S3300000 [] [0] [0] 1
  dot_S5000x256_S256x64_S5000x64_1_0_0_1_n_n_wf : DotDims.WF S5000x256 S256x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S64 : Shape := ⟨1, ![64]⟩
abbrev S2x3200000 : Shape := ⟨2, ![2, 3200000]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S1x3300000 : Shape := ⟨2, ![1, 3300000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S1x64 : Shape := ⟨2, ![1, 64]⟩
abbrev S3300000x64 : Shape := ⟨2, ![3300000, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S2x3200000, .i32⟩
  | .hbm, ⟨4, _⟩ => ⟨S100000, .i32⟩
  | .hbm, ⟨5, _⟩ => ⟨S1x100000, .i32⟩
  | .hbm, ⟨6, _⟩ => ⟨S1x100000, .i32⟩
  | .hbm, ⟨7, _⟩ => ⟨S2x100000, .i32⟩
  | .hbm, ⟨8, _⟩ => ⟨S2x3300000, .i32⟩
  | .hbm, ⟨9, _⟩ => ⟨S1x3300000, .i32⟩
  | .hbm, ⟨10, _⟩ => ⟨S3300000, .i32⟩
  | .hbm, ⟨11, _⟩ => ⟨S1x3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S3300000x1, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S3300000x1, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x64, .f32⟩
  | .hbm, ⟨77, _⟩ => ⟨S3300000x64, .f32⟩
  | .hbm, ⟨78, _⟩ => ⟨S3300000x64, .f32⟩
  | .hbm, ⟨79, _⟩ => ⟨S_, .f32⟩
  | .hbm, ⟨80, _⟩ => ⟨S100000x64, .f32⟩
  | .hbm, ⟨81, _⟩ => ⟨S3300000x1, .i32⟩
  | .hbm, ⟨82, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KernelTail.lean ====
/-
  The host side of the kernel program, as terms.

  After the linear stage the program runs, on the host, two rounds of "look up the rows at the wrapped source words,
  add them up by target word" with a row scaling between them (by d · d) and after them (by d). hop, scaleRows and
  tail name these arrays; tail_eq says the last host stretch computes tail of what it finds in five buffers.

  Before the linear stage the program builds the edge list with its self loops, the degrees and d = deg^(-1/2) (0 where
  the degree is 0) by the very operations the reference uses, so those buffers hold the reference's stages of the
  edge-index argument (prefix_*); d · d, the bias as a row and d as a column are read off the same way.
-/
import proofs.«119465_j7318624272617_2_alg».proof.Proof.Gen.KernelIdeal.Frame
import proofs.«119465_j7318624272617_2_alg».proof.Proof.RefReadP
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo

variable {F : FTy → Type} [FloatOps F]

/-- The source words wrapped (100000 added to a negative one), as a column of lookup indices. -/
def rowIdx (r : (⟨S3300000, .i32⟩ : BufTy).Contents (Elt F)) : (⟨S3300000x1, .i32⟩ : BufTy).Contents (Elt F) :=
  broadcastInDim S3300000x1 ![0] bcast_S3300000_S3300000x1_0
    (select (cmpi .slt r (broadcastInDim S3300000 ![] bcast_S_S3300000 (constantI S_ 32 0#32)))
      (addi r (broadcastInDim S3300000 ![] bcast_S_S3300000 (constantI S_ 32 100000#32))) r)

/-- The target words as a column of scatter indices. -/
def colIdx (c : (⟨S3300000, .i32⟩ : BufTy).Contents (Elt F)) : (⟨S3300000x1, .i32⟩ : BufTy).Contents (Elt F) :=
  broadcastInDim S3300000x1 ![0] bcast_S3300000_S3300000x1_0 c

/-- One round: the rows of X looked up at the source words, added up by target word into zeros. -/
def hop (X : (⟨S100000x64, .f32⟩ : BufTy).Contents (Elt F)) (r c : (⟨S3300000, .i32⟩ : BufTy).Contents (Elt F)) :
    (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (colIdx (F := F) c)
    (Host.gather gather_S100000x64_S3300000x1_S3300000x64_1_0_n_n_0_1_164 X (rowIdx (F := F) r))

/-- Row n of X scaled by d n. -/
def scaleRows (d : (⟨S100000, .f32⟩ : BufTy).Contents (Elt F)) (X : (⟨S100000x64, .f32⟩ : BufTy).Contents (Elt F)) :
    (⟨S100000x64, .f32⟩ : BufTy).Contents (Elt F) :=
  mulf (broadcastInDim S100000x64 ![0, 1] bcast_S100000x1_S100000x64_0_1
    (broadcastInDim S100000x1 ![0] bcast_S100000_S100000x1_0 d)) X

/-- The host operations after the linear stage: a round, a scaling by dd, a round, a scaling by d. -/
def tail (d dd : (⟨S100000, .f32⟩ : BufTy).Contents (Elt F)) (r c : (⟨S3300000, .i32⟩ : BufTy).Contents (Elt F))
    (P : (⟨S100000x64, .f32⟩ : BufTy).Contents (Elt F)) : (⟨S100000x64, .f32⟩ : BufTy).Contents (Elt F) :=
  scaleRows d (hop (scaleRows dd (hop P r c)) r c)

set_option maxHeartbeats 4000000 in
/-- What the last host stretch leaves in the result buffer, from any contents of the buffers it reads. -/
theorem tail_eq (W : Valuation τ sig (Elt F)) :
    StableHlo.after (hostOps1 (F := F)) W (Proc.devRef .tc main_v46)
      = tail (F := F) (W (Proc.devRef .tc main_v16)) (W (Proc.devRef .tc main_v17)) (W (Proc.devRef .tc main_v6))
          (W (Proc.devRef .tc main_v8)) (W (Proc.devRef .tc main_v20)) := by
  unfold tail scaleRows hop rowIdx colIdx
  after_results_simp

variable (m : (ℓ : Loc nD τ sig) → Buf (Elt F) ℓ)

set_option maxHeartbeats 4000000 in
/-- The source words the linear stage's region finds: the reference's stage of the edge-index argument. -/
theorem prefix_row (c : Dev nD) :
    (V m c main_v6 : (⟨S3300000, .i32⟩ : BufTy).Contents (Elt F))
      = Cert.ReferenceIdeal.ReadP.val_main_v6 (F := F) (m ((c.tc : Thread nD τ).loc main_arg3)) := by
  dsimp only [V, V0]
  simp only [hostOps0, hostOps0_1, hostOps0_2, List.flatten_cons, List.flatten_nil, List.append_nil, List.cons_append,
    List.nil_append]
  after_results_simp
  rfl

set_option maxHeartbeats 4000000 in
/-- The target words likewise. -/
theorem prefix_col (c : Dev nD) :
    (V m c main_v8 : (⟨S3300000, .i32⟩ : BufTy).Contents (Elt F))
      = Cert.ReferenceIdeal.ReadP.val_main_v8 (F := F) (m ((c.tc : Thread nD τ).loc main_arg3)) := by
  dsimp only [V, V0]
  simp only [hostOps0, hostOps0_1, hostOps0_2, List.flatten_cons, List.flatten_nil, List.append_nil, List.cons_append,
    List.nil_append]
  after_results_simp
  rfl

set_option maxHeartbeats 4000000 in
/-- The weights d: the reference's stage. -/
theorem prefix_d (c : Dev nD) :
    (V m c main_v16 : (⟨S100000, .f32⟩ : BufTy).Contents (Elt F))
      = Cert.ReferenceIdeal.ReadP.val_main_v16 (F := F) (m ((c.tc : Thread nD τ).loc main_arg3)) := by
  dsimp only [V, V0]
  simp only [hostOps0, hostOps0_1, hostOps0_2, List.flatten_cons, List.flatten_nil, List.append_nil, List.cons_append,
    List.nil_append]
  after_results_simp
  rfl

set_option maxHeartbeats 4000000 in
/-- d · d, entry by entry. -/
theorem prefix_dd (c : Dev nD) :
    (V m c main_v17 : (⟨S100000, .f32⟩ : BufTy).Contents (Elt F))
      = mulf (Cert.ReferenceIdeal.ReadP.val_main_v16 (F := F) (m ((c.tc : Thread nD τ).loc main_arg3)))
          (Cert.ReferenceIdeal.ReadP.val_main_v16 (F := F) (m ((c.tc : Thread nD τ).loc main_arg3))) := by
  dsimp only [V, V0]
  simp only [hostOps0, hostOps0_1, hostOps0_2, List.flatten_cons, List.flatten_nil, List.append_nil, List.cons_append,
    List.nil_append]
  after_results_simp
  rfl

set_option maxHeartbeats 4000000 in
/-- The bias as a 1 × 64 row. -/
theorem prefix_bias (c : Dev nD) :
    (V m c main_v18 : (⟨S1x64, .f32⟩ : BufTy).Contents (Elt F))
      = shapeCast S1x64 (m ((c.tc : Thread nD τ).loc main_arg2)) shapeCasts_S64_S1x64 := by
  dsimp only [V, V0]
  simp only [hostOps0, hostOps0_1, hostOps0_2, List.flatten_cons, List.flatten_nil, List.append_nil, List.cons_append,
    List.nil_append]
  after_results_simp
  rfl

set_option maxHeartbeats 4000000 in
/-- d as a 100000 × 1 column. -/
theorem prefix_dcol (c : Dev nD) :
    (V m c main_v19 : (⟨S100000x1, .f32⟩ : BufTy).Contents (Elt F))
      = shapeCast S100000x1 (Cert.ReferenceIdeal.ReadP.val_main_v16 (F := F) (m ((c.tc : Thread nD τ).loc main_arg3)))
          shapeCasts_S100000_S100000x1 := by
  dsimp only [V, V0]
  simp only [hostOps0, hostOps0_1, hostOps0_2, List.flatten_cons, List.flatten_nil, List.append_nil, List.cons_append,
    List.nil_append]
  after_results_simp
  rfl

/-- The program's result: tail of the prefix's arrays and of the linear stage's output array as the region leaves it. -/
theorem result_eq (c : Dev nD) :
    Pipeline.afterTail₀ cfgs (dats m) 0 (V0 m) [hostOps1] c main_v46
      = tail (F := F) (V m c main_v16) (V m c main_v17) (V m c main_v6) (V m c main_v8)
          ((dats m 0 c).arrAt 4 cfg0.N) := by
  unfold Pipeline.afterTail₀
  show StableHlo.after (hostOps1 (F := F)) _ (Proc.devRef .tc main_v46) = _
  rw [tail_eq]
  rw [Pipeline.withArrays_of_ne _ c (V0 m c) _ main_v16 (by decide),
    Pipeline.withArrays_of_ne _ c (V0 m c) _ main_v17 (by decide),
    Pipeline.withArrays_of_ne _ c (V0 m c) _ main_v6 (by decide),
    Pipeline.withArrays_of_ne _ c (V0 m c) _ main_v8 (by decide)]
  exact congrArg (tail (F := F) _ _ _ _) (Pipeline.withArrays_arr spec0 launch0.win.arr_inj c _ _ 4)

end Cert.KernelIdeal.Tail

end
-- ==== Proof.LinearStage.lean ====
/-
  The linear stage: what the kernel's output array holds after the region.

  The grid has 20 points; point t stages rows 5000·t … 5000·t + 4999 of x and of the weight column, the whole of w
  and the bias row every time, and writes back rows 5000·t … 5000·t + 4999 of the output. The body computes, for the
  staged rows, (x-block · w + bias) · weight: at Ideal the change of float format before the matrix unit is the
  identity and the matrix unit into a zero tile is the plain sum over the 256 contracted positions. So every entry
  (p, q) of a block is Gat of the whole arrays at (5000·t + p, q), the 20 blocks tile the array, and the array ends
  holding G.
-/
import proofs.«119465_j7318624272617_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

/-- Entry (p, q) of the linear stage: row p of x against column q of w, plus the bias at q, times the weight of p. -/
def Gat (x : S100000x256.Idx → EReal) (w : S256x64.Idx → EReal) (b : S1x64.Idx → EReal) (d : S100000x1.Idx → EReal)
    (p : Fin 100000) (q : Fin 64) : EReal :=
  ((∑ k : Fin 256, x (ix2 p k) * w (ix2 k q)) + b (ix2 (0 : Fin 1) q)) * d (ix2 p (0 : Fin 1))

/-- The linear stage's whole array. -/
def G (x : S100000x256.Idx → EReal) (w : S256x64.Idx → EReal) (b : S1x64.Idx → EReal) (d : S100000x1.Idx → EReal) :
    S100000x64.Idx → EReal :=
  fun i => Gat x w b d ⟨(i 0).val, idx2_lt0 i⟩ ⟨(i 1).val, idx2_lt1 i⟩

/-! ## The body at an entry of a block -/

local notation "𝔻" => dot_S5000x256_S256x64_S5000x64_1_0_0_1_n_n

theorem lhs0 (i : S5000x64.Idx) (k : (𝔻).contr.Idx) : ((𝔻).lhsIdx i k 0).val = (i 0).val := by
  unfold DotDims.lhsIdx
  rw [dif_neg (show ¬(0 : Fin S5000x256.rank) ∈ (𝔻).lhsBatch by decide),
    dif_pos (show (0 : Fin S5000x256.rank) ∈ (𝔻).lhsNonContracting by decide)]
  rfl

theorem rhs1 (i : S5000x64.Idx) (k : (𝔻).contr.Idx) : ((𝔻).rhsIdx i k 1).val = (i 1).val := by
  unfold DotDims.rhsIdx
  rw [dif_neg (show ¬(1 : Fin S256x64.rank) ∈ (𝔻).rhsBatch by decide),
    dif_pos (show (1 : Fin S256x64.rank) ∈ (𝔻).rhsNonContracting by decide)]
  rfl

/-- The matrix unit into a zero tile, at (p, q): the sum over the contracted position. -/
theorem dot_apply (a : FVec Ideal S5000x256 .bf16) (b : FVec Ideal S256x64 .bf16) (p : Fin 5000) (q : Fin 64) :
    matmul (𝔻) none a b (constant S5000x64 .f32 0x00000000#32) (ix2 p q) = ∑ k : Fin 256, a (ix2 p k) * b (ix2 k q) := by
  show FloatOps.matmul (𝔻) none a b (constant S5000x64 .f32 0x00000000#32) (ix2 p q) = _
  rw [Ideal.matmul_constant_zero_apply, ← Equiv.sum_comp (contrEquiv1 (𝔻) 256 rfl rfl).symm]
  refine Finset.sum_congr rfl fun k _ => ?_
  have hk := contrEquiv1_symm_val (𝔻) 256 rfl rfl k
  have el : (𝔻).lhsIdx (ix2 p q) ((contrEquiv1 (𝔻) 256 rfl rfl).symm k) = ix2 p k := funext fun a => Fin.ext (by
    match a with
    | ⟨0, _⟩ => exact lhs0 _ _
    | ⟨1, _⟩ => exact ((𝔻).lhsIdx_val_of_single rfl _ _).trans hk)
  have er : (𝔻).rhsIdx (ix2 p q) ((contrEquiv1 (𝔻) 256 rfl rfl).symm k) = ix2 k q := funext fun a => Fin.ext (by
    match a with
    | ⟨0, _⟩ => exact ((𝔻).rhsIdx_val_of_single rfl _ _).trans hk
    | ⟨1, _⟩ => exact rhs1 _ _)
  rw [el, er]

/-- The bias row repeated down the block, at (p, q): the row at q. -/
theorem bias_apply (x2 : Vec Ideal S1x64 .f32) (p : Fin 5000) (q : Fin 64) :
    broadcastTo S5000x64 (shapeCast S1x64 x2 shapeCasts_S1x64_S1x64) broadcasts_S1x64_S5000x64 (ix2 p q)
      = x2 (ix2 (0 : Fin 1) q) := by
  rw [shapeCast_self]
  exact broadcastTo_apply x2 broadcasts_S1x64_S5000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])

/-- The weight column repeated across the block, at (p, q): the column at p. -/
theorem weight_apply (x3 : Vec Ideal S5000x1 .f32) (p : Fin 5000) (q : Fin 64) :
    broadcastTo S5000x64 (shapeCast S5000x1 x3 shapeCasts_S5000x1_S5000x1) broadcasts_S5000x1_S5000x64 (ix2 p q)
      = x3 (ix2 p (0 : Fin 1)) := by
  rw [shapeCast_self]
  exact broadcastTo_apply x3 broadcasts_S5000x1_S5000x64 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else _; rw [if_pos rfl])

/-- THE BODY AT (p, q) of a block: (row p of the x-block · column q of w + bias q) · weight p. -/
theorem pay_apply (x0 : Vec Ideal S5000x256 .f32) (x1 : Vec Ideal S256x64 .f32) (x2 : Vec Ideal S1x64 .f32)
    (x3 : Vec Ideal S5000x1 .f32) (p : Fin 5000) (q : Fin 64) :
    k0_pay1 x0 x1 x2 x3 (ix2 p q)
      = ((∑ k : Fin 256, x0 (ix2 p k) * x1 (ix2 k q)) + x2 (ix2 (0 : Fin 1) q)) * x3 (ix2 p (0 : Fin 1)) := by
  unfold k0_pay1
  refine (mulf_apply _ _ _).trans ?_
  refine congrArg₂ (· * ·) ((addf_apply _ _ _).trans (congrArg₂ (· + ·) ?_ (bias_apply x2 p q))) (weight_apply x3 p q)
  exact dot_apply _ _ p q

/-- An entry of a block against an entry of the whole arrays, given that the staged blocks are the arrays' rows. -/
theorem block_entry (x : S100000x256.Idx → EReal) (w : S256x64.Idx → EReal) (b : S1x64.Idx → EReal)
    (d : S100000x1.Idx → EReal) (x0 : Vec Ideal S5000x256 .f32) (x1 : Vec Ideal S256x64 .f32)
    (x2 : Vec Ideal S1x64 .f32) (x3 : Vec Ideal S5000x1 .f32) (p : Fin 5000) (q : Fin 64) (P : Fin 100000)
    (h0 : ∀ k : Fin 256, x0 (ix2 p k) = x (ix2 P k)) (h1 : ∀ k : Fin 256, x1 (ix2 k q) = w (ix2 k q))
    (h2 : x2 (ix2 (0 : Fin 1) q) = b (ix2 (0 : Fin 1) q)) (h3 : x3 (ix2 p (0 : Fin 1)) = d (ix2 P (0 : Fin 1))) :
    k0_pay1 x0 x1 x2 x3 (ix2 p q) = Gat x w b d P q := by
  rw [pay_apply]
  unfold Gat
  rw [h2, h3]
  exact congrArg (fun s => (s + b (ix2 (0 : Fin 1) q)) * d (ix2 P (0 : Fin 1)))
    (Finset.sum_congr rfl fun k _ => by rw [h0 k, h1 k])

/-- G at an index is Gat at its coordinates. -/
theorem G_apply (x : S100000x256.Idx → EReal) (w : S256x64.Idx → EReal) (b : S1x64.Idx → EReal)
    (d : S100000x1.Idx → EReal) (i : S100000x64.Idx) :
    G x w b d i = Gat x w b d ⟨(i 0).val, idx2_lt0 i⟩ ⟨(i 1).val, idx2_lt1 i⟩ := rfl

/-- Gat depends on the row and the column only through their values. -/
theorem Gat_congr (x : S100000x256.Idx → EReal) (w : S256x64.Idx → EReal) (b : S1x64.Idx → EReal)
    (d : S100000x1.Idx → EReal) {P P' : Fin 100000} {q q' : Fin 64} (hP : P.val = P'.val) (hq : q.val = q'.val) :
    Gat x w b d P q = Gat x w b d P' q' := by
  obtain rfl : P = P' := Fin.ext hP
  obtain rfl : q = q' := Fin.ext hq
  rfl

/-- Gat written out. -/
theorem Gat_def (x : S100000x256.Idx → EReal) (w : S256x64.Idx → EReal) (b : S1x64.Idx → EReal)
    (d : S100000x1.Idx → EReal) (p : Fin 100000) (q : Fin 64) :
    Gat x w b d p q = ((∑ k : Fin 256, x (ix2 p k) * w (ix2 k q)) + b (ix2 (0 : Fin 1) q)) * d (ix2 p (0 : Fin 1)) := rfl

-- G and Gat are used below only through the three equations above.
attribute [irreducible] Gat G

end Cert.KernelIdeal.Linear

end
-- ==== Proof.LinearArray.lean ====
/-
  The linear stage's output array after the region: the 20 row blocks, each what its grid point wrote back, tile
  the array, and each is the corresponding rows of G of the arrays the region finds (x, w, the bias row, the
  weight column).
-/
import proofs.«119465_j7318624272617_2_alg».proof.Proof.LinearStage

set_option maxRecDepth 16384

noncomputable section

open scoped BigOperators

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

/-! ## From the blocks to the array -/

variable (m : (ℓ : Loc nD τ sig) → Buf (Elt Ideal) ℓ)

theorem hz : (![0, 0] : Fin 2 → Nat) = fun _ => 0 := funext fun a => by fin_cases a <;> rfl

/-- The index maps over the grid: x and the weight column move with the output's row block, w and the bias stay put,
    and the output has one column block and at most 20 row blocks. -/
theorem idx_facts : ∀ t : Fin cfg0.N, win0_0.index t (0 : Fin 2) = win0_4.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (0 : Fin 2) ≤ 19 ∧ win0_4.index t (1 : Fin 2) = 0 :=
  (by decide +kernel : ∀ t : Fin grid0.N, _)

/-- Every row block is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

/-! ### Each staged block, read at an entry, is the array at the corresponding entry

Stated over plain coordinates: block row p of point t is array row P = 5000 · (t's row block) + p. -/

theorem blk0_entry (A0 : S100000x256.Idx → EReal) (t : Fin cfg0.N) (p : Fin 5000) (k : Fin 256) (P : Fin 100000)
    (hP : P.val = win0_4.index t (0 : Fin 2) * 5000 + p.val) :
    View.read (Elt Ideal) ((View.whole main_arg0).slice ((win0 0).rect t)) A0 (ix2 p k) = A0 (ix2 P k) := by
  obtain ⟨e0, e1, -⟩ := idx_facts t
  show A0 (((View.whole main_arg0).slice ((win0 0).rect t)).emb (ix2 p k)) = _
  refine congrArg A0 (funext fun a => Fin.ext ?_)
  match a with
  | ⟨0, _⟩ => show win0_0.index t (0 : Fin 2) * 5000 + 1 * p.val = P.val; omega
  | ⟨1, _⟩ => show win0_0.index t (1 : Fin 2) * 256 + 1 * k.val = k.val; omega

theorem blk1_entry (A1 : S256x64.Idx → EReal) (t : Fin cfg0.N) (k : Fin 256) (q : Fin 64) :
    View.read (Elt Ideal) ((View.whole main_arg1).slice ((win0 1).rect t)) A1 (ix2 k q) = A1 (ix2 k q) := by
  obtain ⟨-, -, e2, e3, -⟩ := idx_facts t
  show A1 (((View.whole main_arg1).slice ((win0 1).rect t)).emb (ix2 k q)) = _
  refine congrArg A1 (funext fun a => Fin.ext ?_)
  match a with
  | ⟨0, _⟩ => show win0_1.index t (0 : Fin 2) * 256 + 1 * k.val = k.val; omega
  | ⟨1, _⟩ => show win0_1.index t (1 : Fin 2) * 64 + 1 * q.val = q.val; omega

theorem blk2_entry (A2 : S1x64.Idx → EReal) (t : Fin cfg0.N) (q : Fin 64) :
    View.read (Elt Ideal) ((View.whole main_v18).slice ((win0 2).rect t)) A2 (ix2 (0 : Fin 1) q)
      = A2 (ix2 (0 : Fin 1) q) := by
  obtain ⟨-, -, -, -, e4, e5, -⟩ := idx_facts t
  show A2 (((View.whole main_v18).slice ((win0 2).rect t)).emb (ix2 (0 : Fin 1) q)) = _
  refine congrArg A2 (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

theorem blk3_entry (A3 : S100000x1.Idx → EReal) (t : Fin cfg0.N) (p : Fin 5000) (P : Fin 100000)
    (hP : P.val = win0_4.index t (0 : Fin 2) * 5000 + p.val) :
    View.read (Elt Ideal) ((View.whole main_v19).slice ((win0 3).rect t)) A3 (ix2 p (0 : Fin 1))
      = A3 (ix2 P (0 : Fin 1)) := by
  obtain ⟨-, -, -, -, -, -, e6, e7, -⟩ := idx_facts t
  show A3 (((View.whole main_v19).slice ((win0 3).rect t)).emb (ix2 p (0 : Fin 1))) = _
  refine congrArg A3 (funext fun a => Fin.ext ?_)
  match a with
  | ⟨0, _⟩ => show win0_3.index t (0 : Fin 2) * 5000 + 1 * p.val = P.val; omega
  | ⟨1, _⟩ => show win0_3.index t (1 : Fin 2) * 1 + 1 * 0 = 0; omega

theorem blk4_entry (Gf : S100000x64.Idx → EReal) (t : Fin cfg0.N) (p : Fin 5000) (q : Fin 64) (P : Fin 100000)
    (hP : P.val = win0_4.index t (0 : Fin 2) * 5000 + p.val) :
    View.read (Elt Ideal) ((View.whole main_v20).slice ((win0 4).rect t)) Gf (ix2 p q) = Gf (ix2 P q) := by
  obtain ⟨-, -, -, -, -, -, -, -, e8, e9⟩ := idx_facts t
  show Gf (((View.whole main_v20).slice ((win0 4).rect t)).emb (ix2 p q)) = _
  refine congrArg Gf (funext fun a => Fin.ext ?_)
  match a with
  | ⟨0, _⟩ => show win0_4.index t (0 : Fin 2) * 5000 + 1 * p.val = P.val; omega
  | ⟨1, _⟩ => show win0_4.index t (1 : Fin 2) * 64 + 1 * q.val = q.val; omega

/-- The body on point t's staged blocks, at (p, q): Gat of the arrays at (P, q). -/
theorem block_value (A0 : S100000x256.Idx → EReal) (A1 : S256x64.Idx → EReal) (A2 : S1x64.Idx → EReal)
    (A3 : S100000x1.Idx → EReal) (t : Fin cfg0.N) (p : Fin 5000) (q : Fin 64) (P : Fin 100000)
    (hP : P.val = win0_4.index t (0 : Fin 2) * 5000 + p.val) :
    k0_pay1 (View.read (Elt Ideal) ((View.whole main_arg0).slice ((win0 0).rect t)) A0)
        (View.read (Elt Ideal) ((View.whole main_arg1).slice ((win0 1).rect t)) A1)
        (View.read (Elt Ideal) ((View.whole main_v18).slice ((win0 2).rect t)) A2)
        (View.read (Elt Ideal) ((View.whole main_v19).slice ((win0 3).rect t)) A3) (ix2 p q)
      = Gat A0 A1 A2 A3 P q :=
  block_entry A0 A1 A2 A3
    (View.read (Elt Ideal) ((View.whole main_arg0).slice ((win0 0).rect t)) A0)
    (View.read (Elt Ideal) ((View.whole main_arg1).slice ((win0 1).rect t)) A1)
    (View.read (Elt Ideal) ((View.whole main_v18).slice ((win0 2).rect t)) A2)
    (View.read (Elt Ideal) ((View.whole main_v19).slice ((win0 3).rect t)) A3) p q P
    (fun k => blk0_entry A0 t p k P hP) (fun k => blk1_entry A1 t k q) (blk2_entry A2 t q) (blk3_entry A3 t p P hP)

/-- WHAT POINT t WRITES BACK is block t of G of the arrays as the region finds them: entry (p, q) of the written block
    is the body at (p, q) of the staged blocks, that is Gat at row 5000 · (t's row block) + p and column q
    (block_value), and that is the entry of G which block t reads at (p, q) (blk4_entry). -/
theorem flushed_eq (c : Dev nD) (t : Fin cfg0.N) :
    (dats m 0 c).flushed 4 t = ((cfg0.win 4).blk t).view.read (Elt Ideal)
      (G (V m c (Pipeline.arrRef spec0 0)) (V m c (Pipeline.arrRef spec0 1)) (V m c (Pipeline.arrRef spec0 2))
        (V m c (Pipeline.arrRef spec0 3))) := by
  show (cfg0.win 4).cut (grid0.coords t) ((dats m 0 c).after 4 t) = _
  rw [after0_4]
  unfold out0_4 iblk
  generalize V m c (Pipeline.arrRef spec0 0) = A0
  generalize V m c (Pipeline.arrRef spec0 1) = A1
  generalize V m c (Pipeline.arrRef spec0 2) = A2
  generalize V m c (Pipeline.arrRef spec0 3) = A3
  rw [View.canon_unit_zero hz]
  simp only [View.ld_unit_zero (S := S5000x256) hz, View.ld_unit_zero (S := S256x64) hz,
    View.ld_unit_zero (S := S1x64) hz, View.ld_unit_zero (S := S5000x1) hz]
  have bv := block_value A0 A1 A2 A3 t
  generalize View.read (Elt Ideal) ((View.whole main_arg0).slice ((win0 0).rect t)) A0 = B0 at bv ⊢
  generalize View.read (Elt Ideal) ((View.whole main_arg1).slice ((win0 1).rect t)) A1 = B1 at bv ⊢
  generalize View.read (Elt Ideal) ((View.whole main_v18).slice ((win0 2).rect t)) A2 = B2 at bv ⊢
  generalize View.read (Elt Ideal) ((View.whole main_v19).slice ((win0 3).rect t)) A3 = B3 at bv ⊢
  obtain ⟨-, -, -, -, -, -, -, -, e8, e9⟩ := idx_facts t
  funext j
  obtain ⟨p, q, rfl⟩ : ∃ (p : Fin 5000) (q : Fin 64), j = ix2 p q :=
    ⟨⟨(j 0).val, (j 0).isLt⟩, ⟨(j 1).val, (j 1).isLt⟩, by funext a; match a with | ⟨0, _⟩ => rfl | ⟨1, _⟩ => rfl⟩
  have hP : win0_4.index t (0 : Fin 2) * 5000 + p.val < 100000 := by have := p.isLt; omega
  have hxj : (win0 4).xinj (grid0.coords t) (ix2 p q) = ix2 p q := by
    funext a; match a with | ⟨0, _⟩ => rfl | ⟨1, _⟩ => rfl
  refine (congrArg (k0_pay1 B0 B1 B2 B3) hxj).trans
    ((bv p q ⟨win0_4.index t (0 : Fin 2) * 5000 + p.val, hP⟩ rfl).trans ?_)
  rw [blk4_entry (G A0 A1 A2 A3) t p q ⟨win0_4.index t (0 : Fin 2) * 5000 + p.val, hP⟩ rfl, G_apply]

/-- An index of the array is in point t's block iff each coordinate is in the block's range on its axis. -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v20).slice (win0_4.rect t)).set ↔ _
  rw [View.set_slice_whole, Rect.mem_set_unit]
  exact Iff.rfl

/-- The 20 row blocks tile the array: row r is in block r / 5000. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 64 ≤ (i 1).val ∧ (i 1).val < win0_4.index t (1 : Fin 2) * 64 + 64
    omega

/-- THE ARRAY after the region: G of the arrays as the region finds them. -/
theorem final (c : Dev nD) :
    (dats m 0 c).arrAt 4 cfg0.N = G (V m c (Pipeline.arrRef spec0 0)) (V m c (Pipeline.arrRef spec0 1))
      (V m c (Pipeline.arrRef spec0 2)) (V m c (Pipeline.arrRef spec0 3)) :=
  (dats m 0 c).arrAt_eq_of_cover 4 _ (fun t _ => flushed_eq m c t) cover

end Cert.KernelIdeal.Linear

end
-- ==== Proof.LibSegment.lean ====
/-
  Segment sums and row lookups on the host, read at one element.

  An accumulating scatter along the leading axis (what a segment sum lowers to) adds update position e to
  the operand's position col(e), where col(e) is the index word at e read as a SIGNED integer and NOT clamped:
  an index outside 0 … L - 1 names no position and its update is dropped. So, at the extended reals, position n of
  the result is the operand's entry plus the sum of the updates over the FIBRE { e | col(e) = n } — for a vector of
  updates (vecDims) and, column by column, for a matrix of update rows (rowDims).

  A gather along the leading axis (what x[idx] lowers to) reads, at position e, the operand at the index word at e
  read signed and CLAMPED into 0 … L - 1 — for a vector (vecTake) and, column by column, for the rows of a matrix
  (rowTake).

  The two meet in keep_of_toInt_eq: a word that reads as a position n < L is not negative, so the
  wrap of negative indices leaves it alone, and the clamp leaves it at n. Hence on the fibre of n the gather at the
  wrapped word reads position n.
-/
import Idealize.ShloMosaic.PureOps.ShapeOps
import Idealize.ShloMosaic.PureOps.Ideal
import Idealize.ShloMosaic.Lib.ValueIdx
import Mathlib.Algebra.BigOperators.Fin

noncomputable section

open scoped BigOperators

namespace Idealize.ShloMosaic.LibSegment

open Idealize.ShloMosaic Idealize.ShloMosaic.ValueIdx

/-! ## Which element an update position names -/

/-- An update position names the element i exactly when, on every axis, its start plus its window coordinate is
    i's coordinate (in particular it is then inside the operand). -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e0 := congrArg (fun f : s.Idx => (f a).val) (Option.some.inj e)
      have := h a
      simp only at e0
      omega
    · intro e
      refine congrArg some (funext fun a => Fin.ext ?_)
      have := e a
      show (d.start j idx a + (d.window j a : Int)).toNat = (i a).val
      omega
  · rename_i h
    constructor
    · intro e; exact absurd e (by simp)
    · intro e
      exfalso
      apply h
      intro a
      have := e a
      have := (i a).isLt
      omega

variable {L K M w : Nat}

/-! ## A vector of updates added into a vector -/

/-- The dimension numbers of a segment sum of M scalars into a vector of length L. -/
abbrev vecDims (L M : Nat) (wf : ScatterDims.WF ⟨1, ![L]⟩ ⟨2, ![M, 1]⟩ ⟨1, ![M]⟩ [] [0] [0] 1) :
    ScatterDims ⟨1, ![L]⟩ ⟨2, ![M, 1]⟩ ⟨1, ![M]⟩ :=
  { updateWindowDims := [], insertedWindowDims := [0], scatterDimsToOperandDims := [0], indexVectorDim := 1, wf := wf }

section Vec
variable (wf : ScatterDims.WF ⟨1, ![L]⟩ ⟨2, ![M, 1]⟩ ⟨1, ![M]⟩ [] [0] [0] 1)

theorem vec_siIdx (e : Fin M) (c : Fin 1) : (vecDims L M wf).siIdx (ix1 e) c = ix2 e (0 : Fin 1) := by
  funext b
  match b with
  | ⟨0, _⟩ => rfl
  | ⟨1, _⟩ => exact Fin.ext (by have := c.isLt; show c.val = 0; omega)

theorem vec_start (e : Fin M) (idx : IVec ⟨2, ![M, 1]⟩ w) :
    (vecDims L M wf).start (ix1 e) idx 0 = (idx (ix2 e (0 : Fin 1))).toInt := by
  unfold ScatterDims.start
  rw [dif_pos (List.mem_singleton.2 rfl)]
  exact congrArg (fun k => (idx k).toInt) (vec_siIdx wf e _)

theorem vec_window (e : Fin M) : (vecDims L M wf).window (ix1 e) 0 = 0 := by
  unfold ScatterDims.window
  rw [dif_neg (by simp [ScatterDims.sKept, Shape.kept, List.finRange_succ])]

/-- Update position e names position n exactly when the index word at e, read signed, is n. -/
theorem vec_names_iff (e : Fin M) (idx : IVec ⟨2, ![M, 1]⟩ w) (n : Fin L) :
    (vecDims L M wf).resultIdx? (ix1 e) idx = some (ix1 n) ↔ (idx (ix2 e (0 : Fin 1))).toInt = (n.val : Int) := by
  rw [resultIdx?_eq_some_iff]
  constructor
  · intro h
    have := h 0
    rw [vec_start, vec_window] at this
    simp only [Nat.cast_zero, add_zero] at this
    exact this
  · intro h a
    match a with
    | ⟨0, _⟩ =>
      show (vecDims L M wf).start (ix1 e) idx 0 + (((vecDims L M wf).window (ix1 e) 0 : Nat) : Int) = (n.val : Int)
      rw [vec_start, vec_window, h]; simp

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- THE SEGMENT SUM OF SCALARS AT POSITION n: the operand's entry plus the updates over the fibre of n. -/
theorem hostScatterAdd_vec_apply (x : (⟨1, ![L]⟩ : Shape).Idx → EReal) (idx : IVec ⟨2, ![M, 1]⟩ w)
    (upd : (⟨1, ![M]⟩ : Shape).Idx → EReal) (n : Fin L) :
    Ideal.hostScatterAdd (vecDims L M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  refine Finset.sum_equiv idxEquiv1 (fun j => ?_) (fun j _ => ?_)
  · simp only [Finset.mem_filter, Finset.mem_univ, true_and]
    conv_lhs => rw [eq_ix1 j]
    exact vec_names_iff wf (j 0) idx n
  · conv_lhs => rw [eq_ix1 j]
    rfl

end Vec

/-! ## A matrix of update rows added into the rows of a matrix -/

/-- The dimension numbers of a segment sum of M rows of length K into an L × K matrix. -/
abbrev rowDims (L K M : Nat) (wf : ScatterDims.WF ⟨2, ![L, K]⟩ ⟨2, ![M, 1]⟩ ⟨2, ![M, K]⟩ [1] [0] [0] 1) :
    ScatterDims ⟨2, ![L, K]⟩ ⟨2, ![M, 1]⟩ ⟨2, ![M, K]⟩ :=
  { updateWindowDims := [1], insertedWindowDims := [0], scatterDimsToOperandDims := [0], indexVectorDim := 1, wf := wf }

section Row
variable (wf : ScatterDims.WF ⟨2, ![L, K]⟩ ⟨2, ![M, 1]⟩ ⟨2, ![M, K]⟩ [1] [0] [0] 1)

theorem row_siIdx (e : Fin M) (c : Fin K) (k : Fin 1) : (rowDims L K M wf).siIdx (ix2 e c) k = ix2 e (0 : Fin 1) := by
  funext b
  match b with
  | ⟨0, _⟩ => rfl
  | ⟨1, _⟩ => exact Fin.ext (by have := k.isLt; show k.val = 0; omega)

theorem row_start0 (e : Fin M) (c : Fin K) (idx : IVec ⟨2, ![M, 1]⟩ w) :
    (rowDims L K M wf).start (ix2 e c) idx 0 = (idx (ix2 e (0 : Fin 1))).toInt := by
  unfold ScatterDims.start
  rw [dif_pos (List.mem_singleton.2 rfl)]
  exact congrArg (fun k => (idx k).toInt) (row_siIdx wf e c _)

theorem row_start1 (e : Fin M) (c : Fin K) (idx : IVec ⟨2, ![M, 1]⟩ w) :
    (rowDims L K M wf).start (ix2 e c) idx 1 = 0 := by
  unfold ScatterDims.start
  rw [dif_neg (fun h => absurd (congrArg Fin.val (List.mem_singleton.1 h)) Nat.one_ne_zero)]

theorem row_window0 (e : Fin M) (c : Fin K) : (rowDims L K M wf).window (ix2 e c) 0 = 0 := by
  unfold ScatterDims.window
  rw [dif_neg (by simp [ScatterDims.sKept, Shape.kept, List.finRange_succ])]

theorem row_window1 (e : Fin M) (c : Fin K) : (rowDims L K M wf).window (ix2 e c) 1 = c.val := by
  unfold ScatterDims.window
  rw [dif_pos (by simp [ScatterDims.sKept, Shape.kept, List.finRange_succ])]
  rfl

/-- Update position (e, c) names element (n, c') exactly when the index word at e, read signed, is n and the
    columns agree. -/
theorem row_names_iff (e : Fin M) (c : Fin K) (idx : IVec ⟨2, ![M, 1]⟩ w) (n : Fin L) (c' : Fin K) :
    (rowDims L K M wf).resultIdx? (ix2 e c) idx = some (ix2 n c')
      ↔ (idx (ix2 e (0 : Fin 1))).toInt = (n.val : Int) ∧ c = c' := by
  rw [resultIdx?_eq_some_iff]
  constructor
  · intro h
    have h0 := h 0
    have h1 := h 1
    rw [row_start0, row_window0] at h0
    rw [row_start1, row_window1] at h1
    simp only [Nat.cast_zero, add_zero] at h0
    simp only [zero_add] at h1
    have h1' : ((c.val : Nat) : Int) = ((c'.val : Nat) : Int) := h1
    exact ⟨h0, Fin.ext (by exact_mod_cast h1')⟩
  · rintro ⟨h, rfl⟩ a
    match a with
    | ⟨0, _⟩ =>
      show (rowDims L K M wf).start (ix2 e c) idx 0 + (((rowDims L K M wf).window (ix2 e c) 0 : Nat) : Int) = (n.val : Int)
      rw [row_start0, row_window0, h]; simp
    | ⟨1, _⟩ =>
      show (rowDims L K M wf).start (ix2 e c) idx 1 + (((rowDims L K M wf).window (ix2 e c) 1 : Nat) : Int) = (c.val : Int)
      rw [row_start1, row_window1]; simp

/-- THE SEGMENT SUM OF ROWS AT ELEMENT (n, c): the operand's entry plus column c of the update rows over the fibre of n. -/
theorem hostScatterAdd_row_apply (x : (⟨2, ![L, K]⟩ : Shape).Idx → EReal) (idx : IVec ⟨2, ![M, 1]⟩ w)
    (upd : (⟨2, ![M, K]⟩ : Shape).Idx → EReal) (n : Fin L) (c : Fin K) :
    Ideal.hostScatterAdd (rowDims L K M wf) x idx upd (ix2 n c)
      = x (ix2 n c) + ∑ e ∈ Finset.univ.filter (fun e : Fin M => (idx (ix2 e (0 : Fin 1))).toInt = (n.val : Int)),
          upd (ix2 e c) := by
  unfold Ideal.hostScatterAdd
  congr 1
  have hP : ∀ j : (⟨2, ![M, K]⟩ : Shape).Idx, (rowDims L K M wf).resultIdx? j idx = some (ix2 n c)
      ↔ (idx (ix2 (j 0) (0 : Fin 1))).toInt = (n.val : Int) ∧ j 1 = c := fun j => by
    conv_lhs => rw [eq_ix2 j]
    exact row_names_iff wf (j 0) (j 1) idx n c
  refine Finset.sum_nbij' (fun j => (j 0 : Fin M)) (fun e => ix2 e c) ?_ ?_ ?_ ?_ ?_
  · intro j hj
    exact Finset.mem_filter.2 ⟨Finset.mem_univ _, ((hP j).1 (Finset.mem_filter.1 hj).2).1⟩
  · intro e he
    exact Finset.mem_filter.2 ⟨Finset.mem_univ _, (hP (ix2 e c)).2 ⟨(Finset.mem_filter.1 he).2, rfl⟩⟩
  · intro j hj
    have h1 : j 1 = c := ((hP j).1 (Finset.mem_filter.1 hj).2).2
    show ix2 (j 0) c = j
    rw [← h1]; exact (eq_ix2 j).symm
  · intro e _; rfl
  · intro j hj
    have h1 : j 1 = c := ((hP j).1 (Finset.mem_filter.1 hj).2).2
    show upd j = upd (ix2 (j 0) c)
    rw [← h1]; exact congrArg upd (eq_ix2 j)

end Row

/-! ## Lookups along the leading axis -/

/-- The dimension numbers of x[idx] for a vector x of length L and M index words. -/
abbrev vecTake (L M : Nat) (wf : GatherDims.WF ⟨1, ![L]⟩ ⟨2, ![M, 1]⟩ ⟨1, ![M]⟩ [] [0] [] [0] [] 1 ![1]) :
    GatherDims ⟨1, ![L]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE LOOKUP IN A VECTOR AT e: the operand at the index word at e, read signed and clamped into 0 … L - 1. -/
theorem gather_vec_apply {α : Type} (hL : 0 < L)
    (wf : GatherDims.WF ⟨1, ![L]⟩ ⟨2, ![M, 1]⟩ ⟨1, ![M]⟩ [] [0] [] [0] [] 1 ![1])
    (x : (⟨1, ![L]⟩ : Shape).Idx → α) (idx : IVec ⟨2, ![M, 1]⟩ w) (e : Fin M) :
    Host.gather (vecTake L M wf) x idx (ix1 e)
      = x (ix1 ⟨min (idx (ix2 e (0 : Fin 1))).toInt.toNat (L - 1), by omega⟩) := by
  unfold Host.gather
  congr 1
  funext a
  obtain rfl : a = 0 := Subsingleton.elim _ _
  refine Fin.ext ?_
  show (vecTake L M wf).start (ix1 e) idx 0 + (vecTake L M wf).batchCoord (ix1 e) 0 + (vecTake L M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake L M wf).startIndexMap from List.mem_singleton.mpr rfl)]
  have hsi : (vecTake L M wf).siIdx (ix1 e) ⟨List.idxOf (0 : Fin 1) (vecTake L M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of x[idx] for the rows of an L × K matrix x and M index words. -/
abbrev rowTake (L K M : Nat) (wf : GatherDims.WF ⟨2, ![L, K]⟩ ⟨2, ![M, 1]⟩ ⟨2, ![M, K]⟩ [1] [0] [] [0] [] 1 ![1, K]) :
    GatherDims ⟨2, ![L, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- THE LOOKUP OF A ROW AT (e, c): column c of the operand's row at the index word at e, read signed and clamped
    into 0 … L - 1. -/
theorem gather_row_apply {α : Type} (hL : 0 < L)
    (wf : GatherDims.WF ⟨2, ![L, K]⟩ ⟨2, ![M, 1]⟩ ⟨2, ![M, K]⟩ [1] [0] [] [0] [] 1 ![1, K])
    (x : (⟨2, ![L, K]⟩ : Shape).Idx → α) (idx : IVec ⟨2, ![M, 1]⟩ w) (e : Fin M) (c : Fin K) :
    Host.gather (rowTake L K M wf) x idx (ix2 e c)
      = x (ix2 ⟨min (idx (ix2 e (0 : Fin 1))).toInt.toNat (L - 1), by omega⟩ c) := by
  unfold Host.gather
  congr 1
  funext a
  refine Fin.ext ?_
  match a with
  | ⟨0, _⟩ =>
    show (rowTake L K M wf).start (ix2 e c) idx 0 + (rowTake L K M wf).batchCoord (ix2 e c) 0
      + (rowTake L K M wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake L K M wf).startIndexMap from List.mem_singleton.mpr rfl)]
    have hsi : (rowTake L K M wf).siIdx (ix2 e c) ⟨List.idxOf (0 : Fin 2) (rowTake L K M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowTake L K M wf).start (ix2 e c) idx 1 + (rowTake L K M wf).batchCoord (ix2 e c) 1
      + (rowTake L K M wf).offCoord (ix2 e c) 1 = c.val
    have hk : (1 : Fin 2) ∈ (rowTake L K M wf).sKept :=
      (GatherDims.mem_sKept _ _).2 ⟨fun h => absurd (congrArg Fin.val (List.mem_singleton.1 h)) Nat.one_ne_zero, List.not_mem_nil⟩
    rw [GatherDims.batchCoord_eq_zero _ _ _ List.not_mem_nil]
    unfold GatherDims.start GatherDims.offCoord
    rw [dif_neg (fun h => absurd (congrArg Fin.val (List.mem_singleton.1 h)) Nat.one_ne_zero), dif_pos hk]
    simp only [Nat.zero_add]
    rfl

/-! ## The index words -/

/-- A word that reads, signed, as a position n < L is not negative: the wrap of negative indices (add L when the
    word is below zero) leaves it alone, and the clamp into 0 … L - 1 leaves it at n. -/
theorem keep_of_toInt_eq (x Lw : BitVec 32) (n : Fin L) (h : x.toInt = (n.val : Int)) :
    min (Scalar.select (IntOp.cmpi .slt x 0#32) (IntOp.addi x Lw) x).toInt.toNat (L - 1) = n.val := by
  have hs : IntOp.cmpi .slt x 0#32 = 0#1 := by
    unfold IntOp.cmpi
    have : x.slt 0#32 = false := by
      rw [BitVec.slt_eq_decide]
      simp only [BitVec.toInt_zero, decide_eq_false_iff_not, not_lt]
      omega
    simp [this]
  rw [hs, select_zero, h]
  have := n.isLt
  omega

end Idealize.ShloMosaic.LibSegment

end
-- ==== Proof.Propagation.lean ====
/-
  Two rounds of normalised neighbourhood sums, with the normalisation inside the sums or outside them.

  Edges e = 0 … M - 1 carry a source word R e and a target word C e. The fibre of a node n is the set of edges
  whose target word reads, signed, as n. A lookup at a word x reads position pos x: the word wrapped (L added when
  it is negative) and clamped into 0 … L - 1. On the fibre of n the target word reads as n, so pos (C e) = n.

  With a weight D n per node and features H n j:
    * normalisation INSIDE (refOut): each edge carries nrm e = (D (pos (R e)) · 1) · D (pos (C e)), one round sends X to
      n ↦ Σ over the fibre of n of nrm e · X (pos (R e)), and the result is two rounds applied to H;
    * normalisation OUTSIDE (kerOut): the features are scaled once by D, summed over fibres, scaled by D · D, summed
      over fibres again, and scaled by D.
  On a fibre D (pos (C e)) is the constant D n, and pulling it and D (pos (R e)) across the two sums is distributivity
  of · over finite sums. That law fails at infinities, so it is proved over the reals and carried to the extended
  reals for weights and features that are real numbers (kerOut_eq_refOut).
-/
import Idealize.ShloMosaic.PureOps.Ideal
import proofs.«119465_j7318624272617_2_alg».proof.Proof.LibSegment

noncomputable section

open scoped BigOperators

namespace Cert.Propagation

open Idealize.ShloMosaic

variable {L M K : Nat}

/-- The wrap of a negative index word: L is added to a word below zero. -/
def wrap (Lw x : BitVec 32) : BitVec 32 := Scalar.select (IntOp.cmpi .slt x 0#32) (IntOp.addi x Lw) x

/-- The position a lookup reads at the word x: wrapped, read signed, clamped into 0 … L - 1. -/
def pos (hL : 0 < L) (Lw x : BitVec 32) : Fin L := ⟨min (wrap Lw x).toInt.toNat (L - 1), by omega⟩

/-- The fibre of node n: the edges whose target word reads, signed, as n. -/
def fib (C : Fin M → BitVec 32) (n : Fin L) : Finset (Fin M) :=
  Finset.univ.filter fun e => (C e).toInt = (n.val : Int)

/-- On the fibre of n the lookup at the target word reads position n. -/
theorem pos_of_mem_fib (hL : 0 < L) (Lw : BitVec 32) (C : Fin M → BitVec 32) (n : Fin L) (e : Fin M)
    (he : e ∈ fib C n) : pos hL Lw (C e) = n :=
  Fin.ext (LibSegment.keep_of_toInt_eq (C e) Lw n (Finset.mem_filter.1 he).2)

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Spec
variable (hL : 0 < L) (Lw : BitVec 32) (R C : Fin M → BitVec 32) (D : Fin L → EReal) (H : Fin L → Fin K → EReal)
  (one zero : EReal)

/-- The edge's normalisation, as the reference multiplies it out. -/
def nrm (e : Fin M) : EReal := (D (pos hL Lw (R e)) * one) * D (pos hL Lw (C e))

/-- One round with the normalisation inside the sum. -/
def refHop (X : Fin L → Fin K → EReal) (n : Fin L) (j : Fin K) : EReal :=
  zero + ∑ e ∈ fib C n, nrm hL Lw R C D one e * X (pos hL Lw (R e)) j

/-- Two rounds with the normalisation inside. -/
def refOut (n : Fin L) (j : Fin K) : EReal := refHop hL Lw R C D one zero (refHop hL Lw R C D one zero H) n j

/-- One plain round: the sum over the fibre of the looked-up rows. -/
def kerHop (X : Fin L → Fin K → EReal) (n : Fin L) (j : Fin K) : EReal :=
  zero + ∑ e ∈ fib C n, X (pos hL Lw (R e)) j

/-- Two plain rounds with the weights outside: D once, D · D between the rounds, D at the end. -/
def kerOut (n : Fin L) (j : Fin K) : EReal :=
  D n * kerHop hL Lw R C zero (fun n j => (D n * D n) * kerHop hL Lw R C zero (fun n j => H n j * D n) n j) n j

end Spec

/-- The identity over the reals. -/
theorem real_two_hop (S : Fin L → Finset (Fin M)) (p pc : Fin M → Fin L) (hpc : ∀ n, ∀ e ∈ S n, pc e = n)
    (d : Fin L → ℝ) (h : Fin L → ℝ) (n : Fin L) :
    d n * (0 + ∑ e ∈ S n, (d (p e) * d (p e)) * (0 + ∑ e' ∈ S (p e), h (p e') * d (p e')))
      = 0 + ∑ e ∈ S n, ((d (p e) * 1) * d (pc e)) * (0 + ∑ e' ∈ S (p e), ((d (p e') * 1) * d (pc e')) * h (p e')) := by
  simp only [zero_add, mul_one]
  rw [Finset.mul_sum]
  refine Finset.sum_congr rfl fun e he => ?_
  rw [hpc n e he]
  have inner : ∑ e' ∈ S (p e), (d (p e') * d (pc e')) * h (p e') = d (p e) * ∑ e' ∈ S (p e), h (p e') * d (p e') := by
    rw [Finset.mul_sum]
    refine Finset.sum_congr rfl fun e' he' => ?_
    rw [hpc (p e) e' he']; ring
  rw [inner]; ring

/-- Normalisation outside the sums equals normalisation inside, for real weights and real features. -/
theorem kerOut_eq_refOut (hL : 0 < L) (Lw : BitVec 32) (R C : Fin M → BitVec 32) (D : Fin L → EReal)
    (H : Fin L → Fin K → EReal) (one zero : EReal) (hone : one = 1) (hzero : zero = 0)
    (d : Fin L → ℝ) (hD : ∀ n, D n = (d n : EReal)) (h : Fin L → Fin K → ℝ) (hH : ∀ n j, H n j = (h n j : EReal))
    (n : Fin L) (j : Fin K) :
    kerOut hL Lw R C D H zero n j = refOut hL Lw R C D H one zero n j := by
  have hDf : D = fun n => ((d n : ℝ) : EReal) := funext hD
  have hHf : H = fun n j => ((h n j : ℝ) : EReal) := funext fun n => funext (hH n)
  subst hDf hHf hone hzero
  have key := real_two_hop (fib C) (fun e => pos hL Lw (R e)) (fun e => pos hL Lw (C e))
    (fun n e he => pos_of_mem_fib hL Lw C n e he) d (fun n => h n j) n
  have := congrArg (fun r : ℝ => (r : EReal)) key
  simp only [EReal.coe_mul, EReal.coe_add, coe_sum, EReal.coe_zero, EReal.coe_one] at this
  unfold kerOut refOut refHop kerHop nrm
  exact this

end Cert.Propagation

end
-- ==== Proof.HostPieces.lean ====
/-
  The host's array operations of a propagation round, read at an entry.

  Layout pieces: a scalar repeated to any shape (splat_apply), a vector as an M × 1 column (col_apply), a column
  repeated across K columns (colRepeat_apply), the column of wrapped index words (wrapCol_apply), a matrix whose row
  n is scaled by the n-th entry of a vector (scale_apply).

  Rounds: looking rows up at the wrapped source words and adding them up by target word into zeros is, at entry
  (n, j), zero plus the sum over the fibre of n of the looked-up rows' j-th entries (hop_apply: the plain round);
  with each looked-up row first scaled by an edge weight it is the same sum of weighted entries (whop_apply);
  and the edge weight the reference uses, (d at the source · 1) · d at the target, is nrm (nrm_apply).
-/
import Idealize.ShloMosaic.Lib.Pipeline.Value
import Idealize.ShloMosaic.Lib.ValueIdx
import proofs.«119465_j7318624272617_2_alg».proof.Proof.LibSegment
import proofs.«119465_j7318624272617_2_alg».proof.Proof.Propagation

noncomputable section

open scoped BigOperators

namespace Cert.HostPieces

open Idealize.ShloMosaic Idealize.ShloMosaic.ValueIdx Cert.Propagation

variable {L M K : Nat}

/-- The pattern of 1.0 denotes 1. -/
theorem ofBits_one : Ideal.ofBits .f32 0x3F800000#32 = 1 := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-! ## Layout pieces -/

/-- A scalar repeated to any shape reads the scalar everywhere. -/
theorem splat_apply {α : Type} {t : Shape}
    (hb : (⟨0, ![]⟩ : Shape).BroadcastsInDim t (![] : Fin 0 → Fin t.rank))
    (v : (⟨0, ![]⟩ : Shape).Idx → α) (i : t.Idx) : broadcastInDim t ![] hb v i = v ix0 :=
  broadcastInDim_apply _ hb v i ix0 (fun a => a.elim0)

/-- A vector as an M × 1 column reads the vector at the row. -/
theorem col_apply {α : Type}
    (hb : (⟨1, ![M]⟩ : Shape).BroadcastsInDim ⟨2, ![M, 1]⟩ (![0] : Fin 1 → Fin 2))
    (v : (⟨1, ![M]⟩ : Shape).Idx → α) (e : Fin M) (z : Fin 1) :
    broadcastInDim ⟨2, ![M, 1]⟩ ![0] hb v (ix2 e z) = v (ix1 e) :=
  broadcastInDim_apply _ hb v (ix2 e z) (ix1 e) (fun a => match a with
    | ⟨0, _⟩ => by show e.val = if M = 1 then 0 else e.val; have := e.isLt; split <;> omega)

/-- A column repeated across K columns reads the column at the row. -/
theorem colRepeat_apply {α : Type}
    (hb : (⟨2, ![M, 1]⟩ : Shape).BroadcastsInDim ⟨2, ![M, K]⟩ (![0, 1] : Fin 2 → Fin 2))
    (v : (⟨2, ![M, 1]⟩ : Shape).Idx → α) (e : Fin M) (j : Fin K) :
    broadcastInDim ⟨2, ![M, K]⟩ ![0, 1] hb v (ix2 e j) = v (ix2 e (0 : Fin 1)) :=
  broadcastInDim_apply _ hb v (ix2 e j) (ix2 e (0 : Fin 1)) (fun a => match a with
    | ⟨0, _⟩ => by show e.val = if M = 1 then 0 else e.val; have := e.isLt; split <;> omega
    | ⟨1, _⟩ => by show 0 = if (1 : Nat) = 1 then 0 else j.val; rw [if_pos rfl])

/-- The column of lookup indices: the words with Lw added to the negative ones. -/
def wrapCol (hb0 : (⟨0, ![]⟩ : Shape).BroadcastsInDim ⟨1, ![M]⟩ (![] : Fin 0 → Fin 1))
    (hb1 : (⟨1, ![M]⟩ : Shape).BroadcastsInDim ⟨2, ![M, 1]⟩ (![0] : Fin 1 → Fin 2))
    (Lw : BitVec 32) (r : IVec ⟨1, ![M]⟩ 32) : IVec ⟨2, ![M, 1]⟩ 32 :=
  broadcastInDim ⟨2, ![M, 1]⟩ ![0] hb1
    (select (cmpi .slt r (broadcastInDim ⟨1, ![M]⟩ ![] hb0 (constantI ⟨0, ![]⟩ 32 0#32)))
      (addi r (broadcastInDim ⟨1, ![M]⟩ ![] hb0 (constantI ⟨0, ![]⟩ 32 Lw))) r)

theorem wrapCol_apply (hb0 : (⟨0, ![]⟩ : Shape).BroadcastsInDim ⟨1, ![M]⟩ (![] : Fin 0 → Fin 1))
    (hb1 : (⟨1, ![M]⟩ : Shape).BroadcastsInDim ⟨2, ![M, 1]⟩ (![0] : Fin 1 → Fin 2))
    (Lw : BitVec 32) (r : IVec ⟨1, ![M]⟩ 32) (e : Fin M) :
    wrapCol hb0 hb1 Lw r (ix2 e (0 : Fin 1)) = wrap Lw (r (ix1 e)) := by
  unfold wrapCol
  rw [col_apply]
  show Scalar.select (IntOp.cmpi .slt (r (ix1 e)) (broadcastInDim ⟨1, ![M]⟩ ![] hb0 (constantI ⟨0, ![]⟩ 32 0#32) (ix1 e)))
      (IntOp.addi (r (ix1 e)) (broadcastInDim ⟨1, ![M]⟩ ![] hb0 (constantI ⟨0, ![]⟩ 32 Lw) (ix1 e))) (r (ix1 e)) = _
  rw [splat_apply, splat_apply]
  rfl

/-- A lookup through the wrapped column reads position pos of the word. -/
theorem pos_eq (hL : 0 < L) (hb0 : (⟨0, ![]⟩ : Shape).BroadcastsInDim ⟨1, ![M]⟩ (![] : Fin 0 → Fin 1))
    (hb1 : (⟨1, ![M]⟩ : Shape).BroadcastsInDim ⟨2, ![M, 1]⟩ (![0] : Fin 1 → Fin 2))
    (Lw : BitVec 32) (r : IVec ⟨1, ![M]⟩ 32) (e : Fin M)
    (h : min (wrapCol hb0 hb1 Lw r (ix2 e (0 : Fin 1))).toInt.toNat (L - 1) < L) :
    (⟨min (wrapCol hb0 hb1 Lw r (ix2 e (0 : Fin 1))).toInt.toNat (L - 1), h⟩ : Fin L) = pos hL Lw (r (ix1 e)) :=
  Fin.ext (by show min _ _ = min (wrap Lw (r (ix1 e))).toInt.toNat (L - 1); rw [wrapCol_apply])

/-- Row n scaled by the n-th entry of a vector. -/
theorem scale_apply (hb1 : (⟨1, ![L]⟩ : Shape).BroadcastsInDim ⟨2, ![L, 1]⟩ (![0] : Fin 1 → Fin 2))
    (hb2 : (⟨2, ![L, 1]⟩ : Shape).BroadcastsInDim ⟨2, ![L, K]⟩ (![0, 1] : Fin 2 → Fin 2))
    (d : FVec Ideal ⟨1, ![L]⟩ .f32) (X : FVec Ideal ⟨2, ![L, K]⟩ .f32) (n : Fin L) (j : Fin K) :
    mulf (broadcastInDim ⟨2, ![L, K]⟩ ![0, 1] hb2 (broadcastInDim ⟨2, ![L, 1]⟩ ![0] hb1 d)) X (ix2 n j)
      = d (ix1 n) * X (ix2 n j) := by
  refine (mulf_apply _ _ _).trans ?_
  rw [colRepeat_apply, col_apply]

/-! ## Rounds -/

section Rounds
variable (hL : 0 < L)
  (wfS : ScatterDims.WF ⟨2, ![L, K]⟩ ⟨2, ![M, 1]⟩ ⟨2, ![M, K]⟩ [1] [0] [0] 1)
  (wfG : GatherDims.WF ⟨2, ![L, K]⟩ ⟨2, ![M, 1]⟩ ⟨2, ![M, K]⟩ [1] [0] [] [0] [] 1 ![1, K])
  (hbz : (⟨0, ![]⟩ : Shape).BroadcastsInDim ⟨2, ![L, K]⟩ (![] : Fin 0 → Fin 2))
  (hb0 : (⟨0, ![]⟩ : Shape).BroadcastsInDim ⟨1, ![M]⟩ (![] : Fin 0 → Fin 1))
  (hb1 : (⟨1, ![M]⟩ : Shape).BroadcastsInDim ⟨2, ![M, 1]⟩ (![0] : Fin 1 → Fin 2))
  (Lw : BitVec 32) (r c : IVec ⟨1, ![M]⟩ 32)

/-- The fibre as the scatter states it (through the column of target words) is the fibre of the words. -/
theorem fib_col (n : Fin L) :
    (Finset.univ.filter fun e : Fin M =>
        (broadcastInDim ⟨2, ![M, 1]⟩ ![0] hb1 c (ix2 e (0 : Fin 1))).toInt = (n.val : Int))
      = fib (fun e => c (ix1 e)) n :=
  Finset.filter_congr fun e _ => by rw [col_apply]

/-- The looked-up row's entry. -/
theorem lookup_apply {α : Type} (X : (⟨2, ![L, K]⟩ : Shape).Idx → α) (e : Fin M) (j : Fin K) :
    Host.gather (LibSegment.rowTake L K M wfG) X (wrapCol hb0 hb1 Lw r) (ix2 e j)
      = X (ix2 (pos hL Lw (r (ix1 e))) j) :=
  (LibSegment.gather_row_apply hL wfG X _ e j).trans
    (congrArg (fun z => X (ix2 z j)) (pos_eq hL hb0 hb1 Lw r e _))

/-- THE PLAIN ROUND at (n, j). -/
theorem hop_apply (X : FVec Ideal ⟨2, ![L, K]⟩ .f32) (n : Fin L) (j : Fin K) :
    Host.scatterAdd (F := Ideal) (φ := .f32) (LibSegment.rowDims L K M wfS)
        (broadcastInDim ⟨2, ![L, K]⟩ ![] hbz (constant (F := Ideal) ⟨0, ![]⟩ .f32 0x00000000#32))
        (broadcastInDim ⟨2, ![M, 1]⟩ ![0] hb1 c)
        (Host.gather (LibSegment.rowTake L K M wfG) X (wrapCol hb0 hb1 Lw r)) (ix2 n j)
      = kerHop hL Lw (fun e => r (ix1 e)) (fun e => c (ix1 e)) (Ideal.ofBits .f32 0x00000000#32)
          (fun n j => X (ix2 n j)) n j := by
  show Ideal.hostScatterAdd (LibSegment.rowDims L K M wfS) _ _ _ (ix2 n j) = _
  rw [LibSegment.hostScatterAdd_row_apply, fib_col, splat_apply]
  unfold kerHop
  refine congrArg (Ideal.ofBits .f32 0x00000000#32 + ·) (Finset.sum_congr rfl fun e _ => ?_)
  exact lookup_apply hL wfG hb0 hb1 Lw r X e j

/-- THE WEIGHTED ROUND at (n, j): each looked-up row scaled by its edge's weight before the sum. -/
theorem whop_apply (hbb : (⟨2, ![M, 1]⟩ : Shape).BroadcastsInDim ⟨2, ![M, K]⟩ (![0, 1] : Fin 2 → Fin 2))
    (nv : FVec Ideal ⟨1, ![M]⟩ .f32) (X : FVec Ideal ⟨2, ![L, K]⟩ .f32) (n : Fin L) (j : Fin K) :
    Host.scatterAdd (F := Ideal) (φ := .f32) (LibSegment.rowDims L K M wfS)
        (broadcastInDim ⟨2, ![L, K]⟩ ![] hbz (constant (F := Ideal) ⟨0, ![]⟩ .f32 0x00000000#32))
        (broadcastInDim ⟨2, ![M, 1]⟩ ![0] hb1 c)
        (mulf (broadcastInDim ⟨2, ![M, K]⟩ ![0, 1] hbb (broadcastInDim ⟨2, ![M, 1]⟩ ![0] hb1 nv))
          (Host.gather (LibSegment.rowTake L K M wfG) X (wrapCol hb0 hb1 Lw r))) (ix2 n j)
      = Ideal.ofBits .f32 0x00000000#32
          + ∑ e ∈ fib (fun e => c (ix1 e)) n, nv (ix1 e) * X (ix2 (pos hL Lw (r (ix1 e))) j) := by
  show Ideal.hostScatterAdd (LibSegment.rowDims L K M wfS) _ _ _ (ix2 n j) = _
  rw [LibSegment.hostScatterAdd_row_apply, fib_col, splat_apply]
  refine congrArg (Ideal.ofBits .f32 0x00000000#32 + ·) (Finset.sum_congr rfl fun e _ => ?_)
  refine (scale_apply hb1 hbb nv _ e j).trans ?_
  rw [lookup_apply hL wfG hb0 hb1 Lw r X e j]

/-- THE EDGE WEIGHT: (d at the source · 1) · d at the target. -/
theorem nrm_apply (wfV : GatherDims.WF ⟨1, ![L]⟩ ⟨2, ![M, 1]⟩ ⟨1, ![M]⟩ [] [0] [] [0] [] 1 ![1])
    (D : FVec Ideal ⟨1, ![L]⟩ .f32) (e : Fin M) :
    mulf (mulf (Host.gather (LibSegment.vecTake L M wfV) D (wrapCol hb0 hb1 Lw r))
          (broadcastInDim ⟨1, ![M]⟩ ![] hb0 (constant (F := Ideal) ⟨0, ![]⟩ .f32 0x3F800000#32)))
        (Host.gather (LibSegment.vecTake L M wfV) D (wrapCol hb0 hb1 Lw c)) (ix1 e)
      = nrm hL Lw (fun e => r (ix1 e)) (fun e => c (ix1 e)) (fun n => D (ix1 n)) (Ideal.ofBits .f32 0x3F800000#32) e := by
  refine (mulf_apply _ _ _).trans ?_
  unfold nrm
  refine congrArg₂ (· * ·) ((mulf_apply _ _ _).trans (congrArg₂ (· * ·) ?_ ?_)) ?_
  · exact (LibSegment.gather_vec_apply hL wfV D _ e).trans (congrArg (fun z => D (ix1 z)) (pos_eq hL hb0 hb1 Lw r e _))
  · rw [splat_apply]; rfl
  · exact (LibSegment.gather_vec_apply hL wfV D _ e).trans (congrArg (fun z => D (ix1 z)) (pos_eq hL hb0 hb1 Lw c e _))

/-- THE DEGREE COUNT at n: ones added up by target word into zeros give a non-negative real — one 1 per edge of the
    fibre of n. -/
theorem count_real (wfV : ScatterDims.WF ⟨1, ![L]⟩ ⟨2, ![M, 1]⟩ ⟨1, ![M]⟩ [] [0] [0] 1)
    (hbL : (⟨0, ![]⟩ : Shape).BroadcastsInDim ⟨1, ![L]⟩ (![] : Fin 0 → Fin 1)) (n : Fin L) :
    ∃ r : ℝ, 0 ≤ r ∧
      Host.scatterAdd (F := Ideal) (φ := .f32) (LibSegment.vecDims L M wfV)
        (broadcastInDim ⟨1, ![L]⟩ ![] hbL (constant (F := Ideal) ⟨0, ![]⟩ .f32 0x00000000#32))
        (broadcastInDim ⟨2, ![M, 1]⟩ ![0] hb1 c)
        (broadcastInDim ⟨1, ![M]⟩ ![] hb0 (constant (F := Ideal) ⟨0, ![]⟩ .f32 0x3F800000#32)) (ix1 n) = (r : EReal) := by
  refine ⟨∑ _e ∈ fib (fun e => c (ix1 e)) n, (1 : ℝ), Finset.sum_nonneg fun _ _ => zero_le_one, ?_⟩
  show Ideal.hostScatterAdd (LibSegment.vecDims L M wfV) _ _ _ (ix1 n) = _
  rw [LibSegment.hostScatterAdd_vec_apply, fib_col, splat_apply, coe_sum]
  have hz : constant (F := Ideal) ⟨0, ![]⟩ .f32 0x00000000#32 ix0 = 0 := ofBits_zero
  rw [hz, zero_add]
  refine Finset.sum_congr rfl fun e _ => ?_
  rw [splat_apply]
  exact ofBits_one.trans EReal.coe_one.symm

end Rounds

end Cert.HostPieces

end
-- ==== Proof.Names.lean ====
/-
  The four ingredients of the propagation, named once for both programs: the source and target words of the edges
  (with the self loops appended), the node weights d = deg^(-1/2) (0 at degree 0) and the linear features
  h = x · w + bias — each the reference's own stage of the arguments, which the kernel program's host prefix computes
  by the same operations.
-/
import proofs.«119465_j7318624272617_2_alg».proof.Proof.RefReadP
import proofs.«119465_j7318624272617_2_alg».proof.Proof.Propagation

noncomputable section

open scoped BigOperators

namespace Cert.Names

open Idealize.ShloMosaic Idealize.ShloMosaic.ValueIdx Cert.ReferenceIdeal Cert.ReferenceIdeal.ReadP

theorem hL : 0 < 100000 := by decide

/-- The number of nodes as an index word: what the wrap adds to a negative index. -/
abbrev Lw : BitVec 32 := 100000#32

/-- The source word of edge e. -/
def Rw (a3 : (⟨S2x3200000, .i32⟩ : BufTy).Contents (Elt Ideal)) : Fin 3300000 → BitVec 32 :=
  fun e => val_main_v6 (F := Ideal) a3 (ix1 e)

/-- The target word of edge e. -/
def Cw (a3 : (⟨S2x3200000, .i32⟩ : BufTy).Contents (Elt Ideal)) : Fin 3300000 → BitVec 32 :=
  fun e => val_main_v8 (F := Ideal) a3 (ix1 e)

/-- The weight of node n. -/
def Dn (a3 : (⟨S2x3200000, .i32⟩ : BufTy).Contents (Elt Ideal)) : Fin 100000 → EReal :=
  fun n => val_main_v16 (F := Ideal) a3 (ix1 n)

/-- The linear features. -/
def Hn (a0 : (⟨S100000x256, .f32⟩ : BufTy).Contents (Elt Ideal)) (a1 : (⟨S256x64, .f32⟩ : BufTy).Contents (Elt Ideal))
    (a2 : (⟨S64, .f32⟩ : BufTy).Contents (Elt Ideal)) : Fin 100000 → Fin 64 → EReal :=
  fun n j => val_main_v36 (F := Ideal) a0 a1 a2 (ix2 n j)

abbrev one : EReal := Ideal.ofBits .f32 0x3F800000#32
abbrev zero : EReal := Ideal.ofBits .f32 0x00000000#32

/-- The linear features at (n, j): row n of x against column j of w, plus the bias at j. -/
theorem Hn_entry (a0 : (⟨S100000x256, .f32⟩ : BufTy).Contents (Elt Ideal))
    (a1 : (⟨S256x64, .f32⟩ : BufTy).Contents (Elt Ideal)) (a2 : (⟨S64, .f32⟩ : BufTy).Contents (Elt Ideal))
    (n : Fin 100000) (j : Fin 64) :
    Hn a0 a1 a2 n j = (∑ k : Fin 256, a0 (ix2 n k) * a1 (ix2 k j)) + a2 (ix1 j) := by
  unfold Hn
  rw [val_main_v36_apply]
  show val_main_v33 (F := Ideal) a0 a1 (ix2 n j) + val_main_v35 (F := Ideal) a2 (ix2 n j) = _
  rw [val_main_v33_apply, val_main_v35_apply, val_main_v34_apply]
  have el : ∀ k : Fin 256, lidx_main_v33 (ix2 n j) k = ix2 n k := fun k => by
    funext a; match a with | ⟨0, _⟩ => rfl | ⟨1, _⟩ => rfl
  have er : ∀ k : Fin 256, ridx_main_v33 (ix2 n j) k = ix2 k j := fun k => by
    funext a; match a with | ⟨0, _⟩ => rfl | ⟨1, _⟩ => rfl
  have eb : idx_main_v34 (idx_main_v35 (ix2 n j)) = ix1 j := by
    funext a; match a with | ⟨0, _⟩ => rfl
  rw [eb]
  exact congrArg (· + a2 (ix1 j)) (Finset.sum_congr rfl fun k _ => by rw [el k, er k])

end Cert.Names

end
-- ==== Proof.TailValue.lean ====
/-
  The kernel program's result at an entry, as two plain rounds with the weights outside.

  tail d dd r c P is: scale the rows of P's round by dd, take a round again, scale by d. Read at (n, j) through the
  layout lemmas this is d n · (round of (dd · round of P)) — kerOut's shape, with dd = d · d entry by entry.
  The linear stage's array at (n, j), with the bias as a 1 × 64 row and d as a 100000 × 1 column, is
  (row n of x · column j of w + bias j) · d n: the reference's linear features times the weight.
-/
import proofs.«119465_j7318624272617_2_alg».proof.Proof.KernelTail
import proofs.«119465_j7318624272617_2_alg».proof.Proof.LinearStage
import proofs.«119465_j7318624272617_2_alg».proof.Proof.HostPieces
import proofs.«119465_j7318624272617_2_alg».proof.Proof.Names

noncomputable section

open scoped BigOperators

namespace Cert.KernelIdeal.TailValue

open Cert.KernelIdeal Idealize.ShloMosaic Idealize.ShloMosaic.ValueIdx Cert.Propagation
open Facts₀

/-- The host tail at (n, j): d n times a round of (d · d times a round of P). -/
theorem tail_entry (D : (⟨S100000, .f32⟩ : BufTy).Contents (Elt Ideal))
    (r c : (⟨S3300000, .i32⟩ : BufTy).Contents (Elt Ideal)) (P : (⟨S100000x64, .f32⟩ : BufTy).Contents (Elt Ideal))
    (n : Fin 100000) (j : Fin 64) :
    Tail.tail (F := Ideal) D (mulf (F := Ideal) (s := S100000) (φ := .f32) D D) r c P (ix2 n j)
      = D (ix1 n) * kerHop Names.hL Names.Lw (fun e => r (ix1 e)) (fun e => c (ix1 e)) Names.zero
          (fun n j => (D (ix1 n) * D (ix1 n))
            * kerHop Names.hL Names.Lw (fun e => r (ix1 e)) (fun e => c (ix1 e)) Names.zero (fun n j => P (ix2 n j)) n j)
          n j := by
  unfold Tail.tail Tail.scaleRows Tail.hop Tail.rowIdx Tail.colIdx
  refine (HostPieces.scale_apply bcast_S100000_S100000x1_0 bcast_S100000x1_S100000x64_0_1 D _ n j).trans ?_
  refine congrArg (D (ix1 n) * ·) ?_
  refine (HostPieces.hop_apply Names.hL scatter_S100000x64_S3300000x1_S3300000x64_1_0_0_1_wf
    gather_S100000x64_S3300000x1_S3300000x64_1_0_n_n_0_1_164_wf bcast_S_S100000x64 bcast_S_S3300000
    bcast_S3300000_S3300000x1_0 Names.Lw r c _ n j).trans ?_
  refine congrArg (fun X => kerHop Names.hL Names.Lw (fun e => r (ix1 e)) (fun e => c (ix1 e)) Names.zero X n j)
    (funext fun n' => funext fun j' => ?_)
  refine (HostPieces.scale_apply bcast_S100000_S100000x1_0 bcast_S100000x1_S100000x64_0_1
    (mulf (F := Ideal) (s := S100000) (φ := .f32) D D) _ n' j').trans ?_
  refine congrArg₂ (· * ·) rfl ?_
  exact HostPieces.hop_apply Names.hL scatter_S100000x64_S3300000x1_S3300000x64_1_0_0_1_wf
    gather_S100000x64_S3300000x1_S3300000x64_1_0_n_n_0_1_164_wf bcast_S_S100000x64 bcast_S_S3300000
    bcast_S3300000_S3300000x1_0 Names.Lw r c P n' j'

/-- The linear stage's array at (n, j), the bias given as a row and the weights as a column. -/
theorem G_entry (x : S100000x256.Idx → EReal) (w : S256x64.Idx → EReal) (b : S64.Idx → EReal) (D : S100000.Idx → EReal)
    (n : Fin 100000) (j : Fin 64) :
    Linear.G x w (shapeCast S1x64 b shapeCasts_S64_S1x64) (shapeCast S100000x1 D shapeCasts_S100000_S100000x1) (ix2 n j)
      = ((∑ k : Fin 256, x (ix2 n k) * w (ix2 k j)) + b (ix1 j)) * D (ix1 n) := by
  rw [Linear.G_apply]
  show Linear.Gat x w (shapeCast S1x64 b shapeCasts_S64_S1x64)
    (shapeCast S100000x1 D shapeCasts_S100000_S100000x1) n j = _
  rw [Linear.Gat_def]
  rw [shapeCast_apply b shapeCasts_S64_S1x64 (ix2 (0 : Fin 1) j) (ix1 j) (by
      rw [Shape.rowMajor_val_one, Shape.rowMajor_val_two]; show j.val = 0 * 64 + j.val; omega),
    shapeCast_apply D shapeCasts_S100000_S100000x1 (ix2 n (0 : Fin 1)) (ix1 n) (by
      rw [Shape.rowMajor_val_one, Shape.rowMajor_val_two]; show n.val = n.val * 1 + 0; omega)]

end Cert.KernelIdeal.TailValue

end
-- ==== Proof.KernelValue.lean ====
/-
  The kernel program's result at an entry is kerOut of the named ingredients.

  The program's result is tail of the prefix's arrays and the linear stage's array. The linear stage's array at (n, j)
  is h n j · d n (its bias row and weight column being the bias and d re-laid), d · d is the entrywise square, and
  the source words, target words and d are the reference's stages. So the result at (n, j) is
  d n · round (d · d · round (h · d)).
-/
import proofs.«119465_j7318624272617_2_alg».proof.Proof.KernelTail
import proofs.«119465_j7318624272617_2_alg».proof.Proof.LinearArray
import proofs.«119465_j7318624272617_2_alg».proof.Proof.TailValue
import proofs.«119465_j7318624272617_2_alg».proof.Proof.Names

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.Propagation

variable (m : (ℓ : Loc nD τ sig) → Buf (Elt Ideal) ℓ)

/-- The linear stage's array at (n, j): the linear features times the weight. -/
theorem linear_entry (c : Dev nD) (n : Fin 100000) (j : Fin 64) :
    ((dats m 0 c).arrAt 4 cfg0.N : S100000x64.Idx → EReal) (ix2 n j)
      = Names.Hn (m ((c.tc : Thread nD τ).loc main_arg0)) (m ((c.tc : Thread nD τ).loc main_arg1))
          (m ((c.tc : Thread nD τ).loc main_arg2)) n j * Names.Dn (m ((c.tc : Thread nD τ).loc main_arg3)) n := by
  have e0 : (V m c (Pipeline.arrRef spec0 0) : S100000x256.Idx → EReal) = m ((c.tc : Thread nD τ).loc main_arg0) :=
    V_main_arg0 m c
  have e1 : (V m c (Pipeline.arrRef spec0 1) : S256x64.Idx → EReal) = m ((c.tc : Thread nD τ).loc main_arg1) :=
    V_main_arg1 m c
  have e2 : (V m c (Pipeline.arrRef spec0 2) : S1x64.Idx → EReal)
      = shapeCast S1x64 (m ((c.tc : Thread nD τ).loc main_arg2)) shapeCasts_S64_S1x64 := Tail.prefix_bias m c
  have e3 : (V m c (Pipeline.arrRef spec0 3) : S100000x1.Idx → EReal)
      = shapeCast S100000x1 (Cert.ReferenceIdeal.ReadP.val_main_v16 (F := Ideal) (m ((c.tc : Thread nD τ).loc main_arg3)))
          shapeCasts_S100000_S100000x1 := Tail.prefix_dcol m c
  rw [Linear.final, e0, e1, e2, e3, TailValue.G_entry, Names.Hn_entry]
  rfl

/-- THE KERNEL PROGRAM'S RESULT at (n, j). -/
theorem kernel_entry (c : Dev nD) (n : Fin 100000) (j : Fin 64) :
    (Pipeline.afterTail₀ cfgs (dats m) 0 (V0 m) [hostOps1] c main_v46 : S100000x64.Idx → EReal) (ix2 n j)
      = kerOut Names.hL Names.Lw (Names.Rw (m ((c.tc : Thread nD τ).loc main_arg3)))
          (Names.Cw (m ((c.tc : Thread nD τ).loc main_arg3))) (Names.Dn (m ((c.tc : Thread nD τ).loc main_arg3)))
          (Names.Hn (m ((c.tc : Thread nD τ).loc main_arg0)) (m ((c.tc : Thread nD τ).loc main_arg1))
            (m ((c.tc : Thread nD τ).loc main_arg2))) Names.zero n j := by
  rw [Tail.result_eq, Tail.prefix_d, Tail.prefix_dd, Tail.prefix_row, Tail.prefix_col]
  refine (TailValue.tail_entry _ _ _ _ n j).trans ?_
  have hin : (fun (n : Fin 100000) (j : Fin 64) => ((dats m 0 c).arrAt 4 cfg0.N : S100000x64.Idx → EReal) (ix2 n j))
      = fun n j => Names.Hn (m ((c.tc : Thread nD τ).loc main_arg0)) (m ((c.tc : Thread nD τ).loc main_arg1))
          (m ((c.tc : Thread nD τ).loc main_arg2)) n j * Names.Dn (m ((c.tc : Thread nD τ).loc main_arg3)) n :=
    funext fun n => funext fun j => linear_entry m c n j
  rw [hin]
  rfl

variable (ρ : Dev nD → PrngReg)

/-- The kernel program's run with its result named: the result buffer ends at what the host tail computes, the
    arguments unchanged (the generated frame run, read at the result and at the arguments). -/
theorem run_result : θ_run defs (onTc (τ := τ) (main (F := Ideal))) ⟨m, fun _ => 0, ρ⟩ (fun r => ∀ c : Dev nD,
      r.2.mem ((c.tc : Thread nD τ).loc main_v46) = Pipeline.afterTail₀ cfgs (dats m) 0 (V0 m) [hostOps1] c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v46 (Pipeline.mem_restRefs_of main_v46 (by decide) (by decide)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  The reference's result at an entry, as two rounds with the normalisation inside the sums.

  The reference forms the edge weight nrm e = (d at the source · 1) · d at the target as a vector over the edges, and
  each of its two rounds looks the rows up at the wrapped source words, scales row e by nrm e and adds up by target
  word. Read at (n, j): zero plus the sum over the fibre of n of nrm e times the looked-up entry — refHop, twice.
-/
import proofs.«119465_j7318624272617_2_alg».proof.Proof.HostPieces
import proofs.«119465_j7318624272617_2_alg».proof.Proof.Names

noncomputable section

open scoped BigOperators

namespace Cert.ReferenceIdeal.RefValue

open Cert.ReferenceIdeal Cert.ReferenceIdeal.ReadP Idealize.ShloMosaic Idealize.ShloMosaic.ValueIdx Cert.Propagation
open Facts₀

variable (a0 : (⟨S100000x256, .f32⟩ : BufTy).Contents (Elt Ideal)) (a1 : (⟨S256x64, .f32⟩ : BufTy).Contents (Elt Ideal))
  (a2 : (⟨S64, .f32⟩ : BufTy).Contents (Elt Ideal)) (a3 : (⟨S2x3200000, .i32⟩ : BufTy).Contents (Elt Ideal))

/-- The reference's vector of edge weights is nrm. -/
theorem nrm_entry (e : Fin 3300000) :
    val_main_v32 (F := Ideal) a3 (ix1 e)
      = nrm Names.hL Names.Lw (Names.Rw a3) (Names.Cw a3) (Names.Dn a3) Names.one e :=
  HostPieces.nrm_apply Names.hL bcast_S_S3300000 bcast_S3300000_S3300000x1_0 Names.Lw
    (val_main_v6 (F := Ideal) a3) (val_main_v8 (F := Ideal) a3) gather_S100000_S3300000x1_S3300000_n_0_n_n_0_1_1_wf
    (val_main_v16 (F := Ideal) a3) e

/-- The first round. -/
theorem hop1_entry (n : Fin 100000) (j : Fin 64) :
    val_main_v49 (F := Ideal) a0 a1 a2 a3 (ix2 n j)
      = refHop Names.hL Names.Lw (Names.Rw a3) (Names.Cw a3) (Names.Dn a3) Names.one Names.zero (Names.Hn a0 a1 a2) n j := by
  refine (HostPieces.whop_apply Names.hL scatter_S100000x64_S3300000x1_S3300000x64_1_0_0_1_wf
    gather_S100000x64_S3300000x1_S3300000x64_1_0_n_n_0_1_164_wf bcast_S_S100000x64 bcast_S_S3300000
    bcast_S3300000_S3300000x1_0 Names.Lw (val_main_v6 (F := Ideal) a3) (val_main_v8 (F := Ideal) a3)
    bcast_S3300000x1_S3300000x64_0_1 (val_main_v32 (F := Ideal) a3) (val_main_v36 (F := Ideal) a0 a1 a2) n j).trans ?_
  unfold refHop
  exact congrArg (Names.zero + ·) (Finset.sum_congr rfl fun e _ => by rw [nrm_entry a3 e]; rfl)

/-- THE REFERENCE'S RESULT at (n, j). -/
theorem ref_entry (n : Fin 100000) (j : Fin 64) :
    val_main_v62 (F := Ideal) a0 a1 a2 a3 (ix2 n j)
      = refOut Names.hL Names.Lw (Names.Rw a3) (Names.Cw a3) (Names.Dn a3) (Names.Hn a0 a1 a2) Names.one Names.zero n j := by
  refine (HostPieces.whop_apply Names.hL scatter_S100000x64_S3300000x1_S3300000x64_1_0_0_1_wf
    gather_S100000x64_S3300000x1_S3300000x64_1_0_n_n_0_1_164_wf bcast_S_S100000x64 bcast_S_S3300000
    bcast_S3300000_S3300000x1_0 Names.Lw (val_main_v6 (F := Ideal) a3) (val_main_v8 (F := Ideal) a3)
    bcast_S3300000x1_S3300000x64_0_1 (val_main_v32 (F := Ideal) a3) (val_main_v49 (F := Ideal) a0 a1 a2 a3) n j).trans ?_
  unfold refOut
  show _ = refHop Names.hL Names.Lw (Names.Rw a3) (Names.Cw a3) (Names.Dn a3) Names.one Names.zero
    (refHop Names.hL Names.Lw (Names.Rw a3) (Names.Cw a3) (Names.Dn a3) Names.one Names.zero (Names.Hn a0 a1 a2)) n j
  unfold refHop
  exact congrArg (Names.zero + ·) (Finset.sum_congr rfl fun e _ => by
    rw [nrm_entry a3 e, hop1_entry a0 a1 a2 a3]; rfl)

end Cert.ReferenceIdeal.RefValue

end
-- ==== Proof.FiniteInputs.lean ====
/-
  Finiteness of the inputs: the precondition says |v| < +inf for every entry v of x, w and the bias; on the extended
  reals that excludes both infinities, so each entry is a real (real_of_abs_lt, inputs_real).
-/
import proofs.«119465_j7318624272617_2_alg».proof.Pre_finite_inputs
import proofs.«119465_j7318624272617_2_alg».proof.Proof.Gen.Pre_finite_inputs
import proofs.«119465_j7318624272617_2_alg».proof.Proof.HostPieces
import Idealize.ShloMosaic.Lib.ReduceAll

noncomputable section

open scoped BigOperators

namespace Cert.Finite

open Idealize.ShloMosaic Idealize.ShloMosaic.ValueIdx Cert.Propagation

/-- The pattern of +inf denotes the top element. -/
theorem ofBits_inf : Ideal.ofBits .f32 0x7F800000#32 = ⊤ := by
  simp [Ideal.ofBits, Ideal.ieee]

/-- An extended real whose absolute value is below +inf is a real. -/
theorem real_of_abs_lt (x : EReal)
    (h : Ideal.cmp .olt (max x (-x)) (Ideal.ofBits .f32 0x7F800000#32) = 1#1) : ∃ r : ℝ, x = (r : EReal) := by
  rw [ofBits_inf] at h
  have h' : max x (-x) < ⊤ := by
    by_contra hn
    change BitVec.ofBool (decide (max x (-x) < ⊤)) = 1#1 at h
    rw [decide_eq_false hn] at h
    exact absurd h (by decide)
  induction x using EReal.rec with
  | bot => simp at h'
  | coe r => exact ⟨r, rfl⟩
  | top => simp at h'

instance : Subsingleton Cert.Pre_finite_inputs.S_.Idx := ⟨fun a b => funext fun d => d.elim0⟩

open Cert.Pre_finite_inputs in
/-- Under the precondition every entry of x, of w and of the bias is a real. -/
theorem inputs_real (a0 : FVec Ideal S100000x256 .f32) (a1 : FVec Ideal S256x64 .f32) (a2 : FVec Ideal S64 .f32)
    (a3 : IVec S2x3200000 32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn] at h0
  obtain ⟨h87, h12⟩ := IntOp.andi_eq_one.1 h0
  obtain ⟨h3, h7⟩ := IntOp.andi_eq_one.1 h87
  refine ⟨fun i => ?_, fun i => ?_, fun i => ?_⟩
  · have t := Host.reduce_andi_all _ _ _ _ _ h3 i
    have e : broadcastInDim S100000x256 ![] Facts.bcast_S_S100000x256 (constant (F := Ideal) S_ .f32 0x7F800000#32) i
        = Ideal.ofBits .f32 0x7F800000#32 := HostPieces.splat_apply _ _ i
    refine real_of_abs_lt (a0 i) ?_
    rw [← e]; exact t
  · have t := Host.reduce_andi_all _ _ _ _ _ h7 i
    have e : broadcastInDim S256x64 ![] Facts.bcast_S_S256x64 (constant (F := Ideal) S_ .f32 0x7F800000#32) i
        = Ideal.ofBits .f32 0x7F800000#32 := HostPieces.splat_apply _ _ i
    refine real_of_abs_lt (a1 i) ?_
    rw [← e]; exact t
  · have t := Host.reduce_andi_all _ _ _ _ _ h12 i
    have e : broadcastInDim S64 ![] Facts.bcast_S_S64 (constant (F := Ideal) S_ .f32 0x7F800000#32) i
        = Ideal.ofBits .f32 0x7F800000#32 := HostPieces.splat_apply _ _ i
    refine real_of_abs_lt (a2 i) ?_
    rw [← e]; exact t

end Cert.Finite

end
-- ==== Proof.FiniteWeights.lean ====
/-
  The node weights are real numbers whatever the index words are: the degree of a node is 0 plus one 1 per edge of
  its fibre, a non-negative real r; the weight is the real 1/√r where r > 0 and 0 elsewhere (deg_real, Dn_real).
-/
import proofs.«119465_j7318624272617_2_alg».proof.Proof.HostPieces
import proofs.«119465_j7318624272617_2_alg».proof.Proof.Names

noncomputable section

open scoped BigOperators

namespace Cert.Finite

open Idealize.ShloMosaic Idealize.ShloMosaic.ValueIdx Cert.Propagation

open Cert.ReferenceIdeal Cert.ReferenceIdeal.ReadP Facts₀ in
/-- The degree of node n: a non-negative real. -/
theorem deg_real (a3 : (⟨S2x3200000, .i32⟩ : BufTy).Contents (Elt Ideal)) (n : Fin 100000) :
    ∃ r : ℝ, 0 ≤ r ∧ val_main_v12 (F := Ideal) a3 (ix1 n) = (r : EReal) :=
  HostPieces.count_real (L := 100000) (M := 3300000) bcast_S_S3300000 bcast_S3300000_S3300000x1_0
    (val_main_v8 (F := Ideal) a3) scatter_S100000_S3300000x1_S3300000_n_0_0_1_wf bcast_S_S100000 n

/-- The comparison "0 < r" and the select it drives, on a real degree: 1/√r where r > 0, 0 elsewhere. -/
theorem select_rsqrt_real (r : ℝ) (hr0 : 0 ≤ r) :
    ∃ r' : ℝ, Scalar.select (Ideal.cmp .ogt (r : EReal) 0) (Ideal.rsqrt (r : EReal)) 0 = (r' : EReal) := by
  change ∃ r' : ℝ, Scalar.select (BitVec.ofBool (decide ((0 : EReal) < (r : EReal)))) (Ideal.rsqrt (r : EReal)) 0 = (r' : EReal)
  by_cases hpos : 0 < r
  · rw [decide_eq_true (EReal.coe_pos.2 hpos)]
    refine ⟨(Real.sqrt r)⁻¹, ?_⟩
    show Ideal.rsqrt (r : EReal) = _
    rw [Ideal.rsqrt_coe, if_neg (not_lt.2 hr0), if_neg (ne_of_gt hpos)]
  · rw [decide_eq_false (fun h => hpos (EReal.coe_pos.1 h))]
    exact ⟨0, rfl⟩

open Cert.ReferenceIdeal Cert.ReferenceIdeal.ReadP in
/-- The weight of node n is a real. -/
theorem Dn_real (a3 : (⟨S2x3200000, .i32⟩ : BufTy).Contents (Elt Ideal)) (n : Fin 100000) :
    ∃ r : ℝ, Names.Dn a3 n = (r : EReal) := by
  obtain ⟨r, hr0, hr⟩ := deg_real a3 n
  obtain ⟨r', hr'⟩ := select_rsqrt_real r hr0
  refine ⟨r', ?_⟩
  unfold Names.Dn
  rw [val_main_v16_apply, val_main_v14_apply, val_main_v15_apply, hr]
  have ez : val_main_v13 (F := Ideal) (ix1 n) = 0 := by
    rw [val_main_v13_apply]; exact HostPieces.ofBits_zero
  have ec : val_main_call0_v1 (F := Ideal) (ix1 n) = 0 := by
    rw [val_main_call0_v1_apply]; exact HostPieces.ofBits_zero
  rw [ez, ec]
  exact hr'

end Cert.Finite

end
-- ==== Proof.Finite.lean ====
/-
  The linear features of real inputs are real (a finite sum of products of reals plus a real), and with real weights
  and real features the two arrangements of the propagation agree entry by entry (Hn_real, spec_eq).
-/
import proofs.«119465_j7318624272617_2_alg».proof.Proof.FiniteInputs
import proofs.«119465_j7318624272617_2_alg».proof.Proof.FiniteWeights

noncomputable section

open scoped BigOperators

namespace Cert.Finite

open Idealize.ShloMosaic Idealize.ShloMosaic.ValueIdx Cert.Propagation

open Cert.ReferenceIdeal Cert.ReferenceIdeal.ReadP in
/-- The linear features of real inputs are real. -/
theorem Hn_real (a0 : (⟨S100000x256, .f32⟩ : BufTy).Contents (Elt Ideal))
    (a1 : (⟨S256x64, .f32⟩ : BufTy).Contents (Elt Ideal)) (a2 : (⟨S64, .f32⟩ : BufTy).Contents (Elt Ideal))
    (h0 : ∀ i, ∃ r : ℝ, a0 i = (r : EReal)) (h1 : ∀ i, ∃ r : ℝ, a1 i = (r : EReal))
    (h2 : ∀ i, ∃ r : ℝ, a2 i = (r : EReal)) (n : Fin 100000) (j : Fin 64) :
    ∃ r : ℝ, Names.Hn a0 a1 a2 n j = (r : EReal) := by
  choose x hx using h0
  choose w hw using h1
  choose b hb using h2
  refine ⟨(∑ k : Fin 256, x (ix2 n k) * w (ix2 k j)) + b (ix1 j), ?_⟩
  rw [Names.Hn_entry, EReal.coe_add, coe_sum, hb]
  exact congrArg (· + ((b (ix1 j) : ℝ) : EReal)) (Finset.sum_congr rfl fun k _ => by rw [hx, hw, EReal.coe_mul])

/-- THE TWO ARRANGEMENTS AGREE, entry by entry, on inputs satisfying the precondition. -/
theorem spec_eq (a0 : (⟨Cert.ReferenceIdeal.S100000x256, .f32⟩ : BufTy).Contents (Elt Ideal))
    (a1 : (⟨Cert.ReferenceIdeal.S256x64, .f32⟩ : BufTy).Contents (Elt Ideal))
    (a2 : (⟨Cert.ReferenceIdeal.S64, .f32⟩ : BufTy).Contents (Elt Ideal))
    (a3 : (⟨Cert.ReferenceIdeal.S2x3200000, .i32⟩ : BufTy).Contents (Elt Ideal))
    (h : Cert.Pre_finite_inputs.fn (F := Ideal) a0 a1 a2 a3 = fun _ => 1#1) (n : Fin 100000) (j : Fin 64) :
    kerOut Names.hL Names.Lw (Names.Rw a3) (Names.Cw a3) (Names.Dn a3) (Names.Hn a0 a1 a2) Names.zero n j
      = refOut Names.hL Names.Lw (Names.Rw a3) (Names.Cw a3) (Names.Dn a3) (Names.Hn a0 a1 a2) Names.one Names.zero n j := by
  obtain ⟨h0, h1, h2⟩ := inputs_real a0 a1 a2 a3 h
  choose d hd using Dn_real a3
  choose hh hhh using fun n j => Hn_real a0 a1 a2 h0 h1 h2 n j
  exact kerOut_eq_refOut Names.hL Names.Lw _ _ _ _ _ _ HostPieces.ofBits_one HostPieces.ofBits_zero d hd hh hhh n j

end Cert.Finite

end
-- ==== Proof.lean ====
/-
  The certificate of a two-round graph propagation: a Pallas linear stage with the first weight scaling fused in,
  followed by two host rounds of "look up rows at the source words, add up by target word" with the remaining weight
  scalings between and after them, against the reference that multiplies each edge's contribution by
  d(source) · 1 · d(target) inside both sums.

  * The three frames: the two kernel programs' are the generated frame certificates; the reference's is its
    run with the result dropped.
  * The idealization rewrote nothing, so preserves is trivial.
  * algebraic: the kernel program's result at (n, j) is kerOut of (source words, target words, d, h) — the linear
    stage's array is h · d block by block, the host tail is two plain rounds — and the reference's is refOut of the same
    four; both programs build the words and d from the edge-index argument by the same operations. On a target's
    fibre the looked-up target weight is the constant d n, and moving it and the source weight across the two sums is
    distributivity, valid because d is always a real (0 or 1/√degree) and h is real under the precondition.
-/
import proofs.«119465_j7318624272617_2_alg».proof.Defs
import proofs.«119465_j7318624272617_2_alg».proof.Proof.Gen.Kernel
import proofs.«119465_j7318624272617_2_alg».proof.Proof.Gen.Kernel.Skeleton
import proofs.«119465_j7318624272617_2_alg».proof.Proof.Gen.Kernel.Launch
import proofs.«119465_j7318624272617_2_alg».proof.Proof.Gen.Kernel.Points
import proofs.«119465_j7318624272617_2_alg».proof.Proof.Gen.Kernel.Frame
import proofs.«119465_j7318624272617_2_alg».proof.Proof.Gen.KernelIdeal
import proofs.«119465_j7318624272617_2_alg».proof.Proof.Gen.KernelIdeal.Skeleton
import proofs.«119465_j7318624272617_2_alg».proof.Proof.Gen.KernelIdeal.Launch
import proofs.«119465_j7318624272617_2_alg».proof.Proof.Gen.KernelIdeal.Points
import proofs.«119465_j7318624272617_2_alg».proof.Proof.Gen.KernelIdeal.Frame
import proofs.«119465_j7318624272617_2_alg».proof.Proof.Gen.ReferenceIdeal
import proofs.«119465_j7318624272617_2_alg».proof.Proof.Gen.Pre_finite_inputs
import proofs.«119465_j7318624272617_2_alg».proof.Proof.RefRunP
import proofs.«119465_j7318624272617_2_alg».proof.Proof.RefReadP
import proofs.«119465_j7318624272617_2_alg».proof.Proof.KernelValue
import proofs.«119465_j7318624272617_2_alg».proof.Proof.RefValue
import proofs.«119465_j7318624272617_2_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The two idealized programs end with equal results: entry by entry, kerOut against refOut of the same ingredients. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v46,
    Cert.KernelIdeal.KernelValue.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v62_eq]
  funext i
  obtain ⟨n, j, rfl⟩ : ∃ (n : Fin 100000) (j : Fin 64), i = ix2 n j := ⟨i 0, i 1, eq_ix2 i⟩
  rw [Cert.ReferenceIdeal.RefValue.ref_entry, (hagree c).1, (hagree c).2.1, (hagree c).2.2.1, (hagree c).2.2.2,
    ← Cert.Finite.spec_eq _ _ _ _ (hpre c) n j]
  exact (Cert.KernelIdeal.KernelValue.kernel_entry m c n j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
